-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x768 : Shape := ⟨3, ![32, 32, 768]⟩
abbrev S256x300x768 : Shape := ⟨3, ![256, 300, 768]⟩
abbrev S_ : Shape := ⟨0, ![]⟩

class Facts : Prop where
  bcast_S_S32x32x768 : S_.BroadcastsInDim S32x32x768 (![] : Fin 0 → Fin S32x32x768.rank)
  reducesTo_S32x32x768_S_d0_1_2 : S32x32x768.ReducesTo [0, 1, 2] S_
  h_S_ : 0 < S_.numel
  bcast_S_S256x300x768 : S_.BroadcastsInDim S256x300x768 (![] : Fin 0 → Fin S256x300x768.rank)
  reducesTo_S256x300x768_S_d0_1_2 : S256x300x768.ReducesTo [0, 1, 2] S_

variable [Facts]

def fn {F : FTy → Type} [FloatOps F] (main_arg0 : FVec F S32x32x768 .f32) (main_arg1 : FVec F S256x300x768 .f32) : IVec S_ 1 :=
  let main_v0 : FVec F S32x32x768 .f32 := Host.absf main_arg0
  let main_cst : FVec F S_ .f32 := constant S_ .f32 0x7F800000#32
  let main_v1 : FVec F S32x32x768 .f32 := broadcastInDim S32x32x768 ![] bcast_S_S32x32x768 main_cst
  let main_v2 : IVec S32x32x768 1 := cmpf .olt main_v0 main_v1
  let main_c : IVec S_ 1 := constantI S_ 1 1#1
  let main_v3 : IVec S_ 1 := (fun x v => Host.reduce IntOp.andi x v reducesTo_S32x32x768_S_d0_1_2 h_S_) main_v2 main_c
  let main_v4 : FVec F S256x300x768 .f32 := Host.absf main_arg1
  let main_cst_0 : FVec F S_ .f32 := constant S_ .f32 0x7F800000#32
  let main_v5 : FVec F S256x300x768 .f32 := broadcastInDim S256x300x768 ![] bcast_S_S256x300x768 main_cst_0
  let main_v6 : IVec S256x300x768 1 := cmpf .olt main_v4 main_v5
  let main_c_1 : IVec S_ 1 := constantI S_ 1 1#1
  let main_v7 : IVec S_ 1 := (fun x v => Host.reduce IntOp.andi x v reducesTo_S256x300x768_S_d0_1_2 h_S_) main_v6 main_c_1
  let main_v8 : IVec S_ 1 := andi main_v3 main_v7
  main_v8
-- ==== Kernel.lean ====
abbrev S32x32x768 : Shape := ⟨3, ![32, 32, 768]⟩
abbrev S256x300x768 : Shape := ⟨3, ![256, 300, 768]⟩
abbrev S1024x768 : Shape := ⟨2, ![1024, 768]⟩
abbrev S_ : Shape := ⟨0, ![]⟩
abbrev S256x304x768 : Shape := ⟨3, ![256, 304, 768]⟩
abbrev S32 : Shape := ⟨1, ![32]⟩
abbrev S32x1 : Shape := ⟨2, ![32, 1]⟩
abbrev S1024 : Shape := ⟨1, ![1024]⟩
abbrev S1x1024 : Shape := ⟨2, ![1, 1024]⟩
abbrev S32x1024 : Shape := ⟨2, ![32, 1024]⟩
abbrev S32x256 : Shape := ⟨2, ![32, 256]⟩
abbrev S8x304x768 : Shape := ⟨3, ![8, 304, 768]⟩
abbrev S32x128 : Shape := ⟨2, ![32, 128]⟩
abbrev S2432x768 : Shape := ⟨2, ![2432, 768]⟩
abbrev S2432x1024 : Shape := ⟨2, ![2432, 1024]⟩
abbrev S8x304x1024 : Shape := ⟨3, ![8, 304, 1024]⟩
abbrev S8x1024 : Shape := ⟨2, ![8, 1024]⟩
abbrev S32x8 : Shape := ⟨2, ![32, 8]⟩
abbrev S8x128 : Shape := ⟨2, ![8, 128]⟩

abbrev nBuf : Space → Nat
  | .hbm => 34
  | .vmem => 7
  | .smem => 0
  | _ => 0

abbrev bufTy : (tb : Table) → Fin (tcTables nBuf tb) → BufTy
  | .hbm, ⟨0, _⟩ => ⟨S32x32x768, .f32⟩
  | .hbm, ⟨1, _⟩ => ⟨S256x300x768, .f32⟩
  | .hbm, ⟨2, _⟩ => ⟨S1024x768, .f32⟩
  | .hbm, ⟨3, _⟩ => ⟨S1024x768, .bf16⟩
  | .hbm, ⟨4, _⟩ => ⟨S_, .i32⟩
  | .hbm, ⟨5, _⟩ => ⟨S_, .f32⟩
  | .hbm, ⟨6, _⟩ => ⟨S256x304x768, .f32⟩
  | .hbm, ⟨7, _⟩ => ⟨S32, .i32⟩
  | .hbm, ⟨8, _⟩ => ⟨S32x1, .i32⟩
  | .hbm, ⟨9, _⟩ => ⟨S1024, .i32⟩
  | .hbm, ⟨10, _⟩ => ⟨S1x1024, .i32⟩
  | .hbm, ⟨11, _⟩ => ⟨S_, .i32⟩
  | .hbm, ⟨12, _⟩ => ⟨S_, .i32⟩
  | .hbm, ⟨13, _⟩ => ⟨S1x1024, .i32⟩
  | .hbm, ⟨14, _⟩ => ⟨S1x1024, .i32⟩
  | .hbm, ⟨15, _⟩ => ⟨S1x1024, .i32⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S1x1024, .i32⟩
  | .hbm, ⟨20, _⟩ => ⟨S1x1024, .i32⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S1x1024, .i1⟩
  | .hbm, ⟨25, _⟩ => ⟨S_, .i32⟩
  | .hbm, ⟨26, _⟩ => ⟨S1x1024, .i32⟩
  | .hbm, ⟨27, _⟩ => ⟨S1x1024, .i32⟩
  | .hbm, ⟨28, _⟩ => ⟨S1x1024, .i32⟩
  | .hbm, ⟨29, _⟩ => ⟨S32x1024, .i32⟩
  | .hbm, ⟨30, _⟩ => ⟨S32x1024, .i32⟩
  | .hbm, ⟨31, _⟩ => ⟨S32x1024, .i1⟩
  | .hbm, ⟨32, _⟩ => ⟨S32x1024, .f32⟩
  | .hbm, ⟨33, _⟩ => ⟨S32x256, .f32⟩
  | .local _ .vmem, ⟨0, _⟩ => ⟨S1024x768, .bf16⟩
  | .local _ .vmem, ⟨1, _⟩ => ⟨S8x304x768, .f32⟩
  | .local _ .vmem, ⟨2, _⟩ => ⟨S8x304x768, .f32⟩
  | .local _ .vmem, ⟨3, _⟩ => ⟨S32x1024, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x304x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x32x768_S1024x768 : S32x32x768.ShapeCasts S1024x768
  bitsLt_bf16_f32 : FTy.bits .bf16 < FTy.bits .f32
  pads_S256x300x768_S256x304x768_000_040_000 : S256x300x768.Pads (![0, 0, 0] : Fin 3 → Nat) ![0, 4, 0] ![0, 0, 0] S256x304x768
  h_S_ : 0 < S_.numel
  bcast_S32_S32x1_0 : S32.BroadcastsInDim S32x1 (![0] : Fin 1 → Fin S32x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S32x1024_0_1 : S1x1024.BroadcastsInDim S32x1024 (![0, 1] : Fin 2 → Fin S32x1024.rank)
  bcast_S32x1_S32x1024_0_1 : S32x1.BroadcastsInDim S32x1024 (![0, 1] : Fin 2 → Fin S32x1024.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S8x304x768_S8x304x768_0_0_0 : ∀ a, (![0, 0, 0] : Fin 3 → Nat) a + S8x304x768.size a ≤ S8x304x768.size a
  h_S8x304x768 : 0 < S8x304x768.numel
  shapeCasts_S8x304x768_S8x304x768 : S8x304x768.ShapeCasts S8x304x768
  shapeCasts_S8x304x768_S2432x768 : S8x304x768.ShapeCasts S2432x768
  shapeCasts_S2432x1024_S8x304x1024 : S2432x1024.ShapeCasts S8x304x1024
  reduces_S8x304x1024_S8x1024 : S8x304x1024.Reduces [1] S8x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  iota_S8x128_d1_w32 : S8x128.Iotas .tc 32 [1]
  iota_S8x128_d0_w32 : S8x128.Iotas .tc 32 [0]
  natLt_1_32 : 1 < 32
  dot_S2432x768_S1024x768_S2432x1024_1_1_0_0_n_n_wf : DotDims.WF S2432x768 S1024x768 S2432x1024 [1] [1] [0] [0] [] []
  dot_S32x1024_S8x1024_S32x8_1_1_0_0_n_n_wf : DotDims.WF S32x1024 S8x1024 S32x8 [1] [1] [0] [0] [] []
  dot_S32x8_S8x128_S32x128_1_0_0_1_n_n_wf : DotDims.WF S32x8 S8x128 S32x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .bf16 = 32 ∨ (Rect.block (s := S1024x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x304x768.size a ≤ S256x304x768.size a
  hwx0_1 : ∀ i : grid0.Coords, EltTy.bits .f32 = 32 ∨ (Rect.block (s := S256x304x768) S8x304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x256.size a
  hwx0_3 : ∀ i : grid0.Coords, EltTy.bits .f32 = 32 ∨ (Rect.block (s := S32x256) S32x128.size (cc0_transform_3 i) (hinb0_3 i)).WholeWords (EltTy.packing .f32)

variable [Facts₀]

def dot_S2432x768_S1024x768_S2432x1024_1_1_0_0_n_n : DotDims S2432x768 S1024x768 S2432x1024 where
  lhsContracting := [1]
  rhsContracting := [1]
  lhsNonContracting := [0]
  rhsNonContracting := [0]
  lhsBatch := []
  rhsBatch := []
  wf := dot_S2432x768_S1024x768_S2432x1024_1_1_0_0_n_n_wf
def dot_S32x1024_S8x1024_S32x8_1_1_0_0_n_n : DotDims S32x1024 S8x1024 S32x8 where
  lhsContracting := [1]
  rhsContracting := [1]
  lhsNonContracting := [0]
  rhsNonContracting := [0]
  lhsBatch := []
  rhsBatch := []
  wf := dot_S32x1024_S8x1024_S32x8_1_1_0_0_n_n_wf
def dot_S32x8_S8x128_S32x128_1_0_0_1_n_n : DotDims S32x8 S8x128 S32x128 where
  lhsContracting := [1]
  rhsContracting := [0]
  lhsNonContracting := [0]
  rhsNonContracting := [1]
  lhsBatch := []
  rhsBatch := []
  wf := dot_S32x8_S8x128_S32x128_1_0_0_1_n_n_wf

abbrev win0_0 : Pipeline.Window sig grid0 :=
  Pipeline.Window.ofSpec (Memref.whole main_v1) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x304x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x32x768 : Shape := ⟨3, ![32, 32, 768]⟩
abbrev S256x300x768 : Shape := ⟨3, ![256, 300, 768]⟩
abbrev S256x300x32x32 : Shape := ⟨4, ![256, 300, 32, 32]⟩
abbrev S32x256x32x300 : Shape := ⟨4, ![32, 256, 32, 300]⟩
abbrev S_ : Shape := ⟨0, ![]⟩
abbrev S32x256x32 : Shape := ⟨3, ![32, 256, 32]⟩
abbrev S32x256 : Shape := ⟨2, ![32, 256]⟩

abbrev nBuf : Space → Nat
  | .hbm => 12
  | .vmem => 0
  | .smem => 0
  | _ => 0

abbrev bufTy : (tb : Table) → Fin (tcTables nBuf tb) → BufTy
  | .hbm, ⟨0, _⟩ => ⟨S32x32x768, .f32⟩
  | .hbm, ⟨1, _⟩ => ⟨S256x300x768, .f32⟩
  | .hbm, ⟨2, _⟩ => ⟨S256x300x32x32, .f32⟩
  | .hbm, ⟨3, _⟩ => ⟨S32x256x32x300, .f32⟩
  | .hbm, ⟨4, _⟩ => ⟨S_, .f32⟩
  | .hbm, ⟨5, _⟩ => ⟨S32x256x32, .f32⟩
  | .hbm, ⟨6, _⟩ => ⟨S_, .f32⟩
  | .hbm, ⟨7, _⟩ => ⟨S32x256x32, .f32⟩
  | .hbm, ⟨8, _⟩ => ⟨S32x256x32, .f32⟩
  | .hbm, ⟨9, _⟩ => ⟨S32x256x32, .f32⟩
  | .hbm, ⟨10, _⟩ => ⟨S_, .f32⟩
  | .hbm, ⟨11, _⟩ => ⟨S32x256, .f32⟩
  | _, _ => ⟨S32x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  transposes_S256x300x32x32_S32x256x32x300_2_0_3_1 : S256x300x32x32.Transposes [2, 0, 3, 1] S32x256x32x300
  reducesTo_S32x256x32x300_S32x256x32_d3 : S32x256x32x300.ReducesTo [3] S32x256x32
  h_S_ : 0 < S_.numel
  bcast_S_S32x256x32 : S_.BroadcastsInDim S32x256x32 (![] : Fin 0 → Fin S32x256x32.rank)
  reducesTo_S32x256x32_S32x256_d2 : S32x256x32.ReducesTo [2] S32x256
  dot_S256x300x768_S32x32x768_S256x300x32x32_2_2_01_01_n_n_wf : DotDims.WF S256x300x768 S32x32x768 S256x300x32x32 [2] [2] [0, 1] [0, 1] [] []

variable [Facts₀]

def dot_S256x300x768_S32x32x768_S256x300x32x32_2_2_01_01_n_n : DotDims S256x300x768 S32x32x768 S256x300x32x32 where
  lhsContracting := [2]
  rhsContracting := [2]
  lhsNonContracting := [0, 1]
  rhsNonContracting := [0, 1]
  lhsBatch := []
  rhsBatch := []
  wf := dot_S256x300x768_S32x32x768_S256x300x32x32_2_2_01_01_n_n_wf

class Facts : Prop extends Facts₀ where

variable [Facts]
-- ==== Proof.Spec.lean ====
/-
  What both programs compute, and the laws between the two arrangements.

  For query `q`, passage `p`: the score of query token `a` against passage token `b` is the inner product of their
  embeddings over the 768 coordinates; the best score of token `a` is the maximum over the passage's 300 tokens; the
  result is the sum over the 32 query tokens of log(1 + max(best, 0)).  That is `G`, stated with the reductions'
  initial values as the words the programs print (minus infinity for the maximum, zero for the sums).

  The kernel arranges the same value differently.  It takes eight passages at a time, each padded with four zero tokens
  (a zero token scores 0 against everything, and a further 0 among the candidates of a maximum that is then compared
  with 0 changes nothing: `max_fold_pad`); it multiplies against all 1024 query tokens at once; it sums a query's
  32 tokens by a product with the 0/1 matrix whose entry (r, j) says whether token j belongs to query r
  (`group_sum`); and it places the eight results of a step in their columns of a 128-wide block by a product with the 0/1
  matrix whose entry (k, col) says whether col is the step's k-th column, adding the sixteen steps' blocks
  (`scatter_sum`).  Multiplying by 0 or 1 and adding zeros is exact on the extended reals, infinities included, so
  none of this needs the inputs to be finite.
-/
import Idealize.ShloMosaic.PureOps.Ideal
import Idealize.ShloMosaic.Lib.ValueIdx
import Mathlib.Data.Finset.Fold
import Mathlib.Algebra.BigOperators.Fin

noncomputable section

namespace Cert.Sparta

open Idealize.ShloMosaic Idealize.ShloMosaic.ValueIdx

/-- The initial value of the maxima: the word of minus infinity. -/
abbrev negInf : EReal := Ideal.ofBits .f32 0xFF800000#32
/-- The zero word. -/
abbrev zero32 : EReal := Ideal.ofBits .f32 0x00000000#32

theorem zero32_eq : zero32 = 0 := by simp [zero32, Ideal.ofBits, Ideal.ieee]

/-! ## The function -/

/-- The score of query token (q, a) against passage token (p, b). -/
def score (Q : (⟨3, ![32, 32, 768]⟩ : Shape).Idx → EReal) (P : (⟨3, ![256, 300, 768]⟩ : Shape).Idx → EReal)
    (q a : Fin 32) (p : Fin 256) (b : Fin 300) : EReal :=
  ∑ d : Fin 768, P (ix3 p b d) * Q (ix3 q a d)

/-- One query token's contribution: log(1 + max(its best score over the passage's tokens, 0)). -/
def term (Q : (⟨3, ![32, 32, 768]⟩ : Shape).Idx → EReal) (P : (⟨3, ![256, 300, 768]⟩ : Shape).Idx → EReal)
    (q a : Fin 32) (p : Fin 256) : EReal :=
  Ideal.log1p (max ((Finset.univ : Finset (Fin 300)).fold max negInf (fun b => score Q P q a p b)) zero32)

/-- The result at (q, p): the sum of the query's 32 tokens' contributions. -/
def G (Q : (⟨3, ![32, 32, 768]⟩ : Shape).Idx → EReal) (P : (⟨3, ![256, 300, 768]⟩ : Shape).Idx → EReal) :
    (⟨2, ![32, 256]⟩ : Shape).Idx → EReal :=
  fun i => zero32 + ∑ a : Fin 32, term Q P (i 0) a (i 1)

/-! ## The kernel's step, over any blocks -/

/-- Query token j against padded passage k of a block of eight: log(1 + max(best over the 304 padded tokens, 0)). -/
def tokenTerm (X0 : (⟨2, ![1024, 768]⟩ : Shape).Idx → EReal) (X1 : (⟨3, ![8, 304, 768]⟩ : Shape).Idx → EReal)
    (k : Fin 8) (j : Fin 1024) : EReal :=
  Ideal.log1p (max ((Finset.univ : Finset (Fin 304)).fold max negInf
    (fun b => ∑ d : Fin 768, X1 (ix3 k b d) * X0 (ix2 j d))) zero32)

/-- The product with the grouping matrix: row r against passage k. -/
def grouped (X0 : (⟨2, ![1024, 768]⟩ : Shape).Idx → EReal) (X1 : (⟨3, ![8, 304, 768]⟩ : Shape).Idx → EReal)
    (X2 : (⟨2, ![32, 1024]⟩ : Shape).Idx → EReal) (r : Fin 32) (k : Fin 8) : EReal :=
  ∑ j : Fin 1024, X2 (ix2 r j) * tokenTerm X0 X1 k j

/-- What step c adds to the 128-wide block at (r, col): the product with the 0/1 matrix of the step's columns. -/
def update (c : ℕ) (X0 : (⟨2, ![1024, 768]⟩ : Shape).Idx → EReal) (X1 : (⟨3, ![8, 304, 768]⟩ : Shape).Idx → EReal)
    (X2 : (⟨2, ![32, 1024]⟩ : Shape).Idx → EReal) (r : Fin 32) (col : Fin 128) : EReal :=
  ∑ k : Fin 8, grouped X0 X1 X2 r k * (if col.val = 8 * c + k.val then (1 : EReal) else 0)

/-! ## The laws -/

/-- Further candidates equal to 0 do not change a maximum that is then compared with 0. -/
theorem max_fold_pad (e : EReal) (f : Fin 300 → EReal) (g : Fin 304 → EReal)
    (hlo : ∀ (b : Fin 304) (h : b.val < 300), g b = f ⟨b.val, h⟩) (hhi : ∀ b : Fin 304, 300 ≤ b.val → g b = 0) :
    max ((Finset.univ : Finset (Fin 304)).fold max e g) 0 = max ((Finset.univ : Finset (Fin 300)).fold max e f) 0 := by
  refine eq_of_forall_ge_iff fun c => ?_
  rw [max_le_iff, max_le_iff, Finset.fold_max_le, Finset.fold_max_le]
  constructor
  · rintro ⟨⟨he, hg⟩, h0⟩
    exact ⟨⟨he, fun y _ => by
      have := hg ⟨y.val, by have := y.isLt; omega⟩ (Finset.mem_univ _)
      rwa [hlo ⟨y.val, by have := y.isLt; omega⟩ y.isLt] at this⟩, h0⟩
  · rintro ⟨⟨he, hf⟩, h0⟩
    refine ⟨⟨he, fun x _ => ?_⟩, h0⟩
    by_cases hx : x.val < 300
    · rw [hlo x hx]; exact hf _ (Finset.mem_univ _)
    · rw [hhi x (by omega)]; exact h0

/-- The product of a 0/1 row that marks the 32 tokens of query r with a vector over the 1024 tokens is the sum of the
    vector over that query's tokens. -/
theorem group_sum (v : Fin 1024 → EReal) (r : Fin 32) :
    ∑ j : Fin 1024, (if j.val / 32 = r.val then (1 : EReal) else 0) * v j
      = ∑ a : Fin 32, v ⟨32 * r.val + a.val, by have := r.isLt; have := a.isLt; omega⟩ := by
  have h1 : ∀ j : Fin 1024, (if j.val / 32 = r.val then (1 : EReal) else 0) * v j = if j.val / 32 = r.val then v j else 0 := by
    intro j; split_ifs <;> simp
  rw [Finset.sum_congr rfl fun j _ => h1 j, ← Finset.sum_filter]
  refine Finset.sum_nbij' (fun j => (⟨j.val % 32, Nat.mod_lt _ (by norm_num)⟩ : Fin 32))
    (fun a => (⟨32 * r.val + a.val, by have := r.isLt; have := a.isLt; omega⟩ : Fin 1024)) ?_ ?_ ?_ ?_ ?_
  · intro j _; exact Finset.mem_univ _
  · intro a _
    rw [Finset.mem_filter]
    refine ⟨Finset.mem_univ _, ?_⟩
    show (32 * r.val + a.val) / 32 = r.val
    have := a.isLt; omega
  · intro j hj
    rw [Finset.mem_filter] at hj
    apply Fin.ext
    show 32 * r.val + j.val % 32 = j.val
    have := hj.2; omega
  · intro a _
    apply Fin.ext
    show (32 * r.val + a.val) % 32 = a.val
    have := a.isLt; omega
  · intro j hj
    rw [Finset.mem_filter] at hj
    congr 1
    apply Fin.ext
    show j.val = 32 * r.val + j.val % 32
    have := hj.2; omega

/-- Sixteen steps of eight columns each, step s placing its k-th value in column 8 s + k: column col receives exactly
    the (col mod 8)-th value of step col / 8. -/
theorem scatter_sum (F : ℕ → Fin 8 → EReal) (col : Fin 128) :
    ∑ s ∈ Finset.range 16, ∑ k : Fin 8, F s k * (if col.val = 8 * s + k.val then (1 : EReal) else 0)
      = F (col.val / 8) ⟨col.val % 8, Nat.mod_lt _ (by norm_num)⟩ := by
  have hk : ∀ s : ℕ, ∑ k : Fin 8, F s k * (if col.val = 8 * s + k.val then (1 : EReal) else 0)
      = if col.val / 8 = s then F s ⟨col.val % 8, Nat.mod_lt _ (by norm_num)⟩ else 0 := by
    intro s
    have h1 : ∀ k : Fin 8, F s k * (if col.val = 8 * s + k.val then (1 : EReal) else 0)
        = if k = (⟨col.val % 8, Nat.mod_lt _ (by norm_num)⟩ : Fin 8) then (if col.val / 8 = s then F s k else 0) else 0 := by
      intro k
      by_cases h : col.val = 8 * s + k.val
      · have e1 : k = (⟨col.val % 8, Nat.mod_lt _ (by norm_num)⟩ : Fin 8) := Fin.ext (by show k.val = col.val % 8; have := k.isLt; omega)
        have e2 : col.val / 8 = s := by have := k.isLt; omega
        rw [if_pos h, mul_one, if_pos e1, if_pos e2]
      · rw [if_neg h, mul_zero]
        by_cases e1 : k = (⟨col.val % 8, Nat.mod_lt _ (by norm_num)⟩ : Fin 8)
        · rw [if_pos e1]
          have : ¬ col.val / 8 = s := by
            intro e2; apply h
            have := congrArg Fin.val e1
            simp only at this
            omega
          rw [if_neg this]
        · rw [if_neg e1]
    rw [Finset.sum_congr rfl fun k _ => h1 k, Finset.sum_ite_eq' Finset.univ]
    simp only [Finset.mem_univ, if_true]
  rw [Finset.sum_congr rfl fun s _ => hk s, Finset.sum_ite_eq (Finset.range 16) (col.val / 8)]
  exact if_pos (Finset.mem_range.2 (by have := col.isLt; omega))

/-! ## The sixteen steps of a half give `G` -/

/-- With the query array re-laid as 1024 token rows, the grouping matrix 0/1, and step s of half h holding the padded
    passages 8 (16 h + s) … 8 (16 h + s) + 7: the zero word plus the sixteen steps' updates at (r, col) is
    `G` at (r, 128 h + col). -/
theorem steps_eq_G (Q : (⟨3, ![32, 32, 768]⟩ : Shape).Idx → EReal) (P : (⟨3, ![256, 300, 768]⟩ : Shape).Idx → EReal)
    (X0 : (⟨2, ![1024, 768]⟩ : Shape).Idx → EReal) (X1 : ℕ → (⟨3, ![8, 304, 768]⟩ : Shape).Idx → EReal)
    (X2 : (⟨2, ![32, 1024]⟩ : Shape).Idx → EReal) (h : Fin 2)
    (hX0 : ∀ (j : Fin 1024) (d : Fin 768),
      X0 (ix2 j d) = Q (ix3 ⟨j.val / 32, by have := j.isLt; omega⟩ ⟨j.val % 32, Nat.mod_lt _ (by norm_num)⟩ d))
    (hX1 : ∀ (s : ℕ) (hs : s < 16) (k : Fin 8) (b : Fin 304) (d : Fin 768),
      X1 s (ix3 k b d) = if hb : b.val < 300 then
        P (ix3 ⟨8 * (16 * h.val + s) + k.val, by have := h.isLt; have := k.isLt; omega⟩ ⟨b.val, hb⟩ d) else 0)
    (hX2 : ∀ (r : Fin 32) (j : Fin 1024), X2 (ix2 r j) = if j.val / 32 = r.val then 1 else 0)
    (r : Fin 32) (col : Fin 128) :
    zero32 + ∑ s ∈ Finset.range 16, update s X0 (X1 s) X2 r col
      = G Q P (ix2 r ⟨128 * h.val + col.val, by have := h.isLt; have := col.isLt; omega⟩) := by
  unfold update
  rw [scatter_sum (fun s k => grouped X0 (X1 s) X2 r k) col]
  unfold G grouped
  refine congrArg (zero32 + ·) ?_
  have hs : col.val / 8 < 16 := by have := col.isLt; omega
  rw [Finset.sum_congr rfl fun j _ => by rw [hX2 r j], group_sum]
  refine Finset.sum_congr rfl fun a _ => ?_
  unfold tokenTerm term
  rw [zero32_eq]
  refine congrArg Ideal.log1p ?_
  refine max_fold_pad negInf
    (fun b => score Q P r a ⟨128 * h.val + col.val, by have := h.isLt; have := col.isLt; omega⟩ b) _
    (fun b hb => ?_) (fun b hb => ?_)
  · unfold score
    refine Finset.sum_congr rfl fun d _ => ?_
    rw [hX1 _ hs, dif_pos hb, hX0]
    refine congrArg₂ (· * ·) (congrArg P ?_) (congrArg Q ?_)
    · refine congrArg (fun z => ix3 z (⟨b.val, hb⟩ : Fin 300) d) (Fin.ext ?_)
      show 8 * (16 * h.val + col.val / 8) + col.val % 8 = 128 * h.val + col.val
      omega
    · have e0 : (⟨(32 * r.val + a.val) / 32, by have := r.isLt; have := a.isLt; omega⟩ : Fin 32) = r :=
        Fin.ext (by show (32 * r.val + a.val) / 32 = r.val; have := a.isLt; omega)
      have e1 : (⟨(32 * r.val + a.val) % 32, Nat.mod_lt _ (by norm_num)⟩ : Fin 32) = a :=
        Fin.ext (by show (32 * r.val + a.val) % 32 = a.val; have := a.isLt; omega)
      show ix3 (⟨(32 * r.val + a.val) / 32, _⟩ : Fin 32) (⟨(32 * r.val + a.val) % 32, _⟩ : Fin 32) d = ix3 r a d
      rw [e0, e1]
  · refine Finset.sum_eq_zero fun d _ => ?_
    rw [hX1 _ hs, dif_neg (by omega), zero_mul]

end Cert.Sparta

end
-- ==== Proof.Pieces.lean ====
/-
  What one grid step leaves behind, as the step's arithmetic.

  The body keeps a 32 x 128 accumulator in scratch.  At the first step of a half it stores the zero block there; at
  every step it loads the whole query block, the step's block of eight padded passages, the whole grouping matrix and
  the accumulator, and stores back accumulator + update — one store covering the scratch, whose payload is the
  step's arithmetic (`k0_pay2`) of the four loaded blocks; at the last step of a half it copies the accumulator just
  stored into the output block.  So, for any float values: after a first step the scratch holds the arithmetic of the
  blocks over the zero block; after any other step, over what the step before left; and a last step leaves that same
  value in the output block.
-/
import proofs.«152648_j56470230008479_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that is neither first nor last of its half leaves in the scratch the step's arithmetic over what the step
    before left. -/
theorem scratch_mid (c : Dev nD) (i : grid0.Coords) (arg2 : Memref sig .tc .vmem S1024x768 .bf16) (harg2 : arg2.IsWhole) (arg3 : Memref sig .tc .vmem S8x304x768 .f32) (harg3 : arg3.IsWhole) (arg4 : Memref sig .tc .vmem S32x1024 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (x0 : Vec F S1024x768 .bf16) (x1 : Vec F S8x304x768 .f32) (x2 : Vec F S32x1024 .f32) (xs0 : Vec F S32x128 .f32) :
    sout0_B_0 (F := F) c i arg2 harg2 arg3 harg3 arg4 harg4 arg5 harg5 arg6 harg6 hc0 hc1 x0 x1 x2 xs0 = k0_pay2 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero (S := S32x128) hz2]
  simp only [View.readAt_eq_ld, harg2.read_unread, harg3.read_unread, harg4.read_unread, harg6.read_unread,
    View.ld_unit_zero (S := S1024x768) hz2, View.ld_unit_zero (S := S8x304x768) hz3, View.ld_unit_zero (S := S32x1024) hz2,
    View.ld_unit_zero (S := S32x128) hz2]

/-- The first step of a half leaves in the scratch the step's arithmetic over the zero block it has just stored. -/
theorem scratch_first (c : Dev nD) (i : grid0.Coords) (arg2 : Memref sig .tc .vmem S1024x768 .bf16) (harg2 : arg2.IsWhole) (arg3 : Memref sig .tc .vmem S8x304x768 .f32) (harg3 : arg3.IsWhole) (arg4 : Memref sig .tc .vmem S32x1024 .f32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (x0 : Vec F S1024x768 .bf16) (x1 : Vec F S8x304x768 .f32) (x2 : Vec F S32x1024 .f32) :
    sout0_A_0 (F := F) c i arg2 harg2 arg3 harg3 arg4 harg4 arg5 harg5 arg6 harg6 hc0 hc1 x0 x1 x2 = k0_pay2 i x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x128) hz2, View.readCov_unit_zero (S := S32x128) _ hz2]
  simp only [View.readAt_eq_ld, harg2.read_unread, harg3.read_unread, harg4.read_unread,
    View.ld_unit_zero (S := S1024x768) hz2, View.ld_unit_zero (S := S8x304x768) hz3, View.ld_unit_zero (S := S32x1024) hz2]

/-- The last step of a half leaves in the scratch the step's arithmetic over what the step before left … -/
theorem scratch_last (c : Dev nD) (i : grid0.Coords) (arg2 : Memref sig .tc .vmem S1024x768 .bf16) (harg2 : arg2.IsWhole) (arg3 : Memref sig .tc .vmem S8x304x768 .f32) (harg3 : arg3.IsWhole) (arg4 : Memref sig .tc .vmem S32x1024 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S1024x768 .bf16) (x1 : Vec F S8x304x768 .f32) (x2 : Vec F S32x1024 .f32) (xs0 : Vec F S32x128 .f32) :
    sout0_C_0 (F := F) c i arg2 harg2 arg3 harg3 arg4 harg4 arg5 harg5 arg6 harg6 hc0 hc1 x0 x1 x2 xs0 = k0_pay2 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S32x128) hz2]
  simp only [View.readAt_eq_ld, harg2.read_unread, harg3.read_unread, harg4.read_unread, harg6.read_unread,
    View.ld_unit_zero (S := S1024x768) hz2, View.ld_unit_zero (S := S8x304x768) hz3, View.ld_unit_zero (S := S32x1024) hz2,
    View.ld_unit_zero (S := S32x128) hz2]

/-- … and the same value in the output block: the copy of the accumulator just stored. -/
theorem out_last (c : Dev nD) (i : grid0.Coords) (arg2 : Memref sig .tc .vmem S1024x768 .bf16) (harg2 : arg2.IsWhole) (arg3 : Memref sig .tc .vmem S8x304x768 .f32) (harg3 : arg3.IsWhole) (arg4 : Memref sig .tc .vmem S32x1024 .f32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (x0 : Vec F S1024x768 .bf16) (x1 : Vec F S8x304x768 .f32) (x2 : Vec F S32x1024 .f32) (xs0 : Vec F S32x128 .f32) :
    out0_C_3 (F := F) c i arg2 harg2 arg3 harg3 arg4 harg4 arg5 harg5 arg6 harg6 hc0 hc1 x0 x1 x2 xs0 = k0_pay2 i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S32x128) hz2, View.readCov_unit_zero (S := S32x128) _ hz2]
  simp only [View.readAt_eq_ld, harg2.read_unread, harg3.read_unread, harg4.read_unread, harg6.read_unread,
    View.ld_unit_zero (S := S1024x768) hz2, View.ld_unit_zero (S := S8x304x768) hz3, View.ld_unit_zero (S := S32x1024) hz2,
    View.ld_unit_zero (S := S32x128) hz2]

end Cert.KernelIdeal.Pieces

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Payload.lean ====
/-
  One grid step's arithmetic, read at an entry of the accumulator.

  The step multiplies the block of eight padded passages, flattened to 2432 token rows, against the 1024 query token rows
  over the 768 embedding coordinates; regroups the 2432 rows as 8 x 304; takes, per passage and query token, the maximum
  over the 304 rows; compares with zero and takes log(1 + x); multiplies the grouping matrix against the result over the
  1024 query tokens; multiplies that against the 0/1 matrix whose entry (k, col) is 1 exactly when col = 8 c + k (c the
  step's number within its half, built from two iotas, a comparison and a conversion); and adds the product to the
  accumulator.  Read at (r, col) that is the accumulator's entry plus `Sparta.update c` of the three loaded blocks.
-/
import proofs.«152648_j56470230008479_2_alg».proof.Proof.Gen.KernelIdeal.Skeleton
import proofs.«152648_j56470230008479_2_alg».proof.Proof.Spec
import proofs.«152648_j56470230008479_2_alg».proof.Proof.LibRowOps
import proofs.«152648_j56470230008479_2_alg».proof.Proof.LibBlock
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- 2432 rows regrouped as 8 x 304: row (k, b) is row 304 k + b. -/
theorem split_rows (v : S2432x1024.Idx → EReal) (h : S2432x1024.ShapeCasts S8x304x1024) (k : Fin 8) (b : Fin 304) (j : Fin 1024) :
    shapeCast S8x304x1024 v h (ix3 k b j)
      = v (ix2 (⟨k.val * 304 + b.val, by have := k.isLt; have := b.isLt; omega⟩ : Fin 2432) j) :=
  shapeCast_apply v _ _ _ (by rw [Shape.rowMajor_val_two, Shape.rowMajor_val_three]; rfl)

/-- 8 x 304 rows flattened to 2432: row 304 k + b is row (k, b). -/
theorem merge_rows (v : S8x304x768.Idx → EReal) (h : S8x304x768.ShapeCasts S2432x768) (k : Fin 8) (b : Fin 304) (d : Fin 768) :
    shapeCast S2432x768 v h
        (ix2 (⟨k.val * 304 + b.val, by have := k.isLt; have := b.isLt; omega⟩ : Fin 2432) d)
      = v (ix3 k b d) :=
  shapeCast_apply v _ _ _ (by rw [Shape.rowMajor_val_two, Shape.rowMajor_val_three]; rfl)

/-- The maximum over the 304 rows of a passage, per passage k and query token j. -/
theorem max_rows (src : FVec Ideal S8x304x1024 .f32) (h : S8x304x1024.Reduces [1] S8x1024) (hφ : FKind.Formats .f32)
    (hacc : (0xFF800000#32 : BitVec 32) = FKind.maximumf.neutral .f32 hφ) (k : Fin 8) (j : Fin 1024) :
    multiReduction .maximumf [1] S8x1024 src 0xFF800000#32 h hφ hacc (ix2 k j)
      = (Finset.univ : Finset (Fin 304)).fold max (FloatOps.ofBits (F := Ideal) .f32 0xFF800000#32) (fun b => src (ix3 k b j)) :=
  (Ideal.multiReduction_maximumf_single src _ h hφ hacc (ix2 k j)).trans (by
    have e : (src ∘ h.lift (ix2 k j)) = fun b : Fin 304 => src (ix3 k b j) :=
      funext fun b => congrArg src (funext fun ax => Fin.ext (by
        match ax with
        | ⟨0, _⟩ => rfl
        | ⟨1, _⟩ => rfl
        | ⟨2, _⟩ => rfl))
    rw [e]; rfl)

/-- The 0/1 entry: the conversion of the one-bit comparison of column col with 8 c + k. -/
theorem indicator (c k col : ℕ) (hc : c < 16) (hk : k < 8) (hcol : col < 128) :
    (FloatOps.sitofp (F := Ideal) .f32
        ((IntOp.cmpi .eq (BitVec.ofNat 32 col) (IntOp.addi (Scalar.muli (BitVec.ofNat 32 c) 8#32) (BitVec.ofNat 32 k))).setWidth 32) : EReal)
      = if col = 8 * c + k then 1 else 0 := by
  have hiff : (BitVec.ofNat 32 col = IntOp.addi (Scalar.muli (BitVec.ofNat 32 c) 8#32) (BitVec.ofNat 32 k)) ↔ col = 8 * c + k := by
    unfold IntOp.addi Scalar.muli IntOp.muli
    rw [← BitVec.toNat_inj]
    simp only [BitVec.toNat_add, BitVec.toNat_mul, BitVec.toNat_ofNat]
    omega
  have hcmp : ∀ x y : BitVec 32, IntOp.cmpi .eq x y = BitVec.ofBool (x == y) := fun _ _ => rfl
  rw [hcmp]
  by_cases h : col = 8 * c + k
  · rw [if_pos h, show (BitVec.ofNat 32 col == IntOp.addi (Scalar.muli (BitVec.ofNat 32 c) 8#32) (BitVec.ofNat 32 k)) = true from
      beq_iff_eq.mpr (hiff.mpr h)]
    show ((((BitVec.ofBool true).setWidth 32).toInt : ℝ) : EReal) = 1
    rw [show ((BitVec.ofBool true).setWidth 32).toInt = 1 by decide]; simp
  · rw [if_neg h, show (BitVec.ofNat 32 col == IntOp.addi (Scalar.muli (BitVec.ofNat 32 c) 8#32) (BitVec.ofNat 32 k)) = false from
      beq_eq_false_iff_ne.mpr (fun e => h (hiff.mp e))]
    show ((((BitVec.ofBool false).setWidth 32).toInt : ℝ) : EReal) = 0
    rw [show ((BitVec.ofBool false).setWidth 32).toInt = 0 by decide]; simp

/-- log(1 + x) of a vector, at an entry. -/
theorem log1p_at (x : FVec Ideal S8x1024 .f32) (idx : S8x1024.Idx) : log1p x idx = Ideal.log1p (x idx) := rfl

/-- The comparison with the zero block, at an entry. -/
theorem relu_at (x : FVec Ideal S8x1024 .f32) (idx : S8x1024.Idx) :
    maximumf x (broadcast S8x1024 (FloatOps.ofBits (F := Ideal) .f32 0x00000000#32)) idx = max (x idx) Cert.Sparta.zero32 := rfl

/-- The 0/1 matrix of the step's columns, at an entry, before the iotas are read. -/
theorem columns_at (w : BitVec 32) (h1 : S8x128.Iotas .tc 32 [1]) (h0 : S8x128.Iotas .tc 32 [0]) (hlt : 1 < 32) (idx : S8x128.Idx) :
    (sitofp (F := Ideal) .f32 (extui 32 (cmpi .eq (iota .tc S8x128 32 [1] h1) (addi (broadcast S8x128 w) (iota .tc S8x128 32 [0] h0))) hlt)) idx
      = FloatOps.sitofp (F := Ideal) .f32 ((IntOp.cmpi .eq (iota .tc S8x128 32 [1] h1 idx) (IntOp.addi w (iota .tc S8x128 32 [0] h0 idx))).setWidth 32) := rfl

/-- The step's arithmetic at entry (r, col) of the accumulator. -/
theorem pay_apply (i : grid0.Coords) (x0 : Vec Ideal S1024x768 .bf16) (x1 : Vec Ideal S8x304x768 .f32)
    (x2 : Vec Ideal S32x1024 .f32) (acc : Vec Ideal S32x128 .f32) (r : Fin 32) (col : Fin 128) :
    k0_pay2 (F := Ideal) i x0 x1 x2 acc (ix2 r col)
      = acc (ix2 r col) + Cert.Sparta.update (i 1).val x0 x1 x2 r col := by
  unfold k0_pay2
  simp only [shapeCast_self]
  refine (addf_apply _ _ _).trans (congrArg (acc (ix2 r col) + ·) ?_)
  refine (Cert.LibBlock.matmul_zero_ix2 dot_S32x8_S8x128_S32x128_1_0_0_1_n_n rfl rfl rfl rfl rfl rfl _ _ _ r col).trans ?_
  unfold Cert.Sparta.update
  refine Finset.sum_congr rfl fun k _ => congrArg₂ (· * ·) ?_ ?_
  · refine (Cert.LibRowOps.matmul_zero_rows_ix2 dot_S32x1024_S8x1024_S32x8_1_1_0_0_n_n rfl rfl rfl rfl rfl rfl _ _ _ r k).trans ?_
    unfold Cert.Sparta.grouped
    refine Finset.sum_congr rfl fun j _ => congrArg (x2 (ix2 r j) * ·) ?_
    unfold Cert.Sparta.tokenTerm
    refine (log1p_at _ _).trans (congrArg Ideal.log1p ((relu_at _ _).trans (congrArg (max · Cert.Sparta.zero32) ?_)))
    refine (max_rows _ _ _ _ k j).trans ?_
    refine congrArg (fun f => Finset.fold max Cert.Sparta.negInf f (Finset.univ : Finset (Fin 304))) (funext fun b => ?_)
    refine (split_rows _ _ k b j).trans ?_
    refine (Cert.LibRowOps.matmul_zero_rows_ix2 dot_S2432x768_S1024x768_S2432x1024_1_1_0_0_n_n rfl rfl rfl rfl rfl rfl (φ₁ := .bf16) (φ₂ := .bf16) none
      (shapeCast S2432x768 (truncf .bf16 x1 bitsLt_bf16_f32) shapeCasts_S8x304x768_S2432x768) x0 _ j).trans ?_
    refine Finset.sum_congr rfl fun d _ => congrArg (· * x0 (ix2 j d)) ?_
    exact (merge_rows _ _ k b d).trans (truncf_apply _ _ _)
  · refine (columns_at _ _ _ _ _).trans ?_
    rw [iota_single_apply, iota_single_apply]
    exact indicator (i 1).val k.val col.val (i 1).isLt k.isLt col.isLt

end Cert.KernelIdeal.Payload

end
-- ==== Proof.Accumulate.lean ====
/-
  The accumulator over the sixteen steps of a half.

  The grid's 32 points are two halves of sixteen steps; point n is step n mod 16 of half n / 16.  The first step of a half
  stores the zero block in the accumulator and then adds its update; every later step adds its update to what the step
  before left; the last step also copies the accumulator into the output block.  So after the last step of a half the
  accumulator — and with it the output block that step writes back — holds, entry by entry, the zero word plus the sum
  of the sixteen steps' updates, each the update of that step's number over the three blocks the point loads.
-/
import proofs.«152648_j56470230008479_2_alg».proof.Proof.Gen.KernelIdeal.Value
import proofs.«152648_j56470230008479_2_alg».proof.Proof.Spec
import proofs.«152648_j56470230008479_2_alg».proof.Proof.Pieces
import proofs.«152648_j56470230008479_2_alg».proof.Proof.Payload
import Idealize.ShloMosaic.Lib.Pipeline.Value
import Idealize.ShloMosaic.Lib.ValueIdx

noncomputable section

namespace Cert.KernelIdeal.Accumulate

open Idealize.ShloMosaic Idealize.ShloMosaic.TcCoe Idealize.ShloMosaic.ValueIdx Idealize.SL.Sem
open Cert.KernelIdeal Cert.KernelIdeal.Gen Cert.KernelIdeal.Value

variable (m : (ℓ : Loc nD τ sig) → Buf (Elt Ideal) ℓ) (c : Dev nD)

/-- A point's step number within its half is the point's number modulo 16. -/
theorem step_of_point : ∀ t : Fin cfg0.N, (grid0.coords t 1).val = t.val % 16 :=
  (by decide +kernel : ∀ t : Fin grid0.N, (grid0.coords t 1).val = t.val % 16)

/-- What point n adds to the accumulator at (r, col): the update of its step over the point's three input blocks
    (nothing past the grid). -/
def addend (n : ℕ) (r : Fin 32) (col : Fin 128) : EReal :=
  if h : n < cfg0.N then
    Cert.Sparta.update (n % 16) (iblk m c 0 ⟨n, h⟩ : Vec Ideal S1024x768 .bf16) (iblk m c 1 ⟨n, h⟩ : Vec Ideal S8x304x768 .f32)
      (iblk m c 2 ⟨n, h⟩ : Vec Ideal S32x1024 .f32) r col
  else 0

/-- The block the first step of a half stores is zero at every entry. -/
theorem zero_block_at (idx : S32x128.Idx) : (k0_pay1 (F := Ideal)) idx = Cert.Sparta.zero32 := by
  unfold k0_pay1
  simp only [shapeCast_self]
  rfl

/-- A step that is not the first of its half adds its update to what the step before left. -/
theorem later_step (n : ℕ) (hb : n < cfg0.N) (h0 : ¬n % 16 = 0) (acc : Vec Ideal S32x128 .f32) (r : Fin 32) (col : Fin 128) :
    scAt0_0 m c n hb acc (ix2 r col) = acc (ix2 r col) + addend m c n r col := by
  have hco : (grid0.coords (⟨n, hb⟩ : Fin cfg0.N) 1).val = n % 16 := step_of_point (⟨n, hb⟩ : Fin cfg0.N)
  unfold scAt0_0 addend
  rw [dif_neg h0, dif_pos hb]
  by_cases h1 : n % 16 = 15
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 r col)).trans ?_
    refine (Payload.pay_apply (grid0.coords (⟨n, hb⟩ : Fin cfg0.N)) (iblk m c 0 (⟨n, hb⟩ : Fin cfg0.N)) (iblk m c 1 (⟨n, hb⟩ : Fin cfg0.N)) (iblk m c 2 (⟨n, hb⟩ : Fin cfg0.N)) acc r col).trans ?_
    rw [hco]
  · rw [dif_neg h1]
    refine (congrFun (Pieces.scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 r col)).trans ?_
    refine (Payload.pay_apply (grid0.coords (⟨n, hb⟩ : Fin cfg0.N)) (iblk m c 0 (⟨n, hb⟩ : Fin cfg0.N)) (iblk m c 1 (⟨n, hb⟩ : Fin cfg0.N)) (iblk m c 2 (⟨n, hb⟩ : Fin cfg0.N)) acc r col).trans ?_
    rw [hco]

/-- The first step of a half leaves the zero word plus its update, whatever the accumulator held. -/
theorem first_step (n : ℕ) (hb : n < cfg0.N) (h0 : n % 16 = 0) (junk : Vec Ideal S32x128 .f32) (r : Fin 32) (col : Fin 128) :
    scAt0_0 m c n hb junk (ix2 r col) = Cert.Sparta.zero32 + addend m c n r col := by
  have hco : (grid0.coords (⟨n, hb⟩ : Fin cfg0.N) 1).val = n % 16 := step_of_point (⟨n, hb⟩ : Fin cfg0.N)
  have h1 : ¬n % 16 = 15 := by omega
  unfold scAt0_0 addend
  rw [dif_pos h0, dif_neg h1, dif_pos hb]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 r col)).trans ?_
  refine (Payload.pay_apply (grid0.coords (⟨n, hb⟩ : Fin cfg0.N)) (iblk m c 0 (⟨n, hb⟩ : Fin cfg0.N)) (iblk m c 1 (⟨n, hb⟩ : Fin cfg0.N)) (iblk m c 2 (⟨n, hb⟩ : Fin cfg0.N)) (k0_pay1 (F := Ideal)) r col).trans ?_
  rw [hco, zero_block_at]

/-- After the last step of a half the accumulator holds, at (r, col), the zero word plus the sixteen steps' updates. -/
theorem accumulator_at_last (t : Fin cfg0.N) (h15 : t.val % 16 = 15) (r : Fin 32) (col : Fin 128) :
    (outsAt0 m c t.val t.isLt).2 (ix2 r col)
      = Cert.Sparta.zero32 + ∑ s ∈ Finset.range 16, addend m c (16 * (t.val / 16) + s) r col := by
  rw [soutsAt0_0_eq m c t]
  refine (Pipeline.accAt_add_apply (ι := S32x128.Idx) (β := EReal) (N := cfg0.N)
    (fun n h => scAt0_0 m c n h (VS0_0.read (Elt Ideal) VS0_0.junk)) (scAt0_0 m c)
    (fun _ => Cert.Sparta.zero32) (fun n i => addend m c n (i 0) (i 1)) (16 * (t.val / 16)) 15
    (fun h i => by
      obtain ⟨r', col', rfl⟩ : ∃ (r' : Fin 32) (col' : Fin 128), i = ix2 r' col' := ⟨i 0, i 1, eq_ix2 i⟩
      exact first_step m c _ h (Nat.mul_mod_right 16 _) _ r' col')
    (fun n h acc i hlo hhi => by
      obtain ⟨r', col', rfl⟩ : ∃ (r' : Fin 32) (col' : Fin 128), i = ix2 r' col' := ⟨i 0, i 1, eq_ix2 i⟩
      exact later_step m c n h (by omega) acc r' col')
    (t.val % 16) (by omega) (by have h1 := t.isLt; have h2 := Nat.div_add_mod t.val 16; omega) (ix2 r col)).trans ?_
  rw [h15]

/-- The last step of a half leaves in the output block what it leaves in the accumulator. -/
theorem output_at_last (t : Fin cfg0.N) (h15 : t.val % 16 = 15) :
    (outsAt0 m c t.val t.isLt).1 = (outsAt0 m c t.val t.isLt).2 := by
  have h0 : ¬t.val % 16 = 0 := by omega
  rw [outsAt0_C m c t h0 h15]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2).symm

end Cert.KernelIdeal.Accumulate

end
-- ==== Proof.Blocks.lean ====
import proofs.«152648_j56470230008479_2_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen

/-! What each input window's block at a grid point reads of the array the region finds, at the ideal values. A
    window's block at point t is the box of its array whose coordinate on each axis is the window's block index at t
    times the block's extent plus the coordinate inside the block. -/

variable (m : (ℓ : Loc nD τ sig) → Buf (Elt Ideal) ℓ) (c : Dev nD)

/-- The block indices of the four windows at grid point t: the queries and the group matrix are one whole block at
    every point; the passages advance by one block of eight per point; the output's column block is t / 16. -/
theorem index_maps : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val / 16 :=
  (by decide +kernel : ∀ t : Fin grid0.N, _)

/-- The query window's block at any point is the whole query array: entry (j, d) of the block is entry (j, d) of
    the array. -/
theorem query_block (t : Fin cfg0.N) (j : Fin 1024) (d : Fin 768) :
    (iblk m c 0 t : Vec Ideal S1024x768 .bf16) (ix2 j d) = (V (F := Ideal) m c main_v1 : S1024x768.Idx → EReal) (ix2 j d) := by
  obtain ⟨e0, e1, -⟩ := index_maps t
  unfold iblk
  rw [View.read_apply]
  show (V (F := Ideal) m c main_v1 : S1024x768.Idx → EReal) (((cfg0.win 0).blk t).view.emb (ix2 j d)) = _
  refine congrArg _ (funext fun a => Fin.ext ?_)
  match a with
  | ⟨0, _⟩ => show win0_0.index t (0 : Fin 2) * 1024 + 1 * j.val = j.val; rw [e0]; omega
  | ⟨1, _⟩ => show win0_0.index t (1 : Fin 2) * 768 + 1 * d.val = d.val; rw [e1]; omega

/-- The passage window's block at point t holds passages 8 t … 8 t + 7 whole: entry (k, b, d) of the block is
    entry (8 t + k, b, d) of the padded passage array. -/
theorem passages_block (t : Fin cfg0.N) (k : Fin 8) (b : Fin 304) (d : Fin 768) :
    (iblk m c 1 t : Vec Ideal S8x304x768 .f32) (ix3 k b d)
      = (V (F := Ideal) m c main_v2 : S256x304x768.Idx → EReal) (ix3 (⟨8 * t.val + k.val, by have h := t.isLt; have hN : cfg0.N = 32 := N_0; have := k.isLt; omega⟩ : Fin 256) b d) := by
  obtain ⟨-, -, e0, e1, e2, -⟩ := index_maps t
  unfold iblk
  rw [View.read_apply]
  show (V (F := Ideal) m c main_v2 : S256x304x768.Idx → EReal) (((cfg0.win 1).blk t).view.emb (ix3 k b d)) = _
  refine congrArg _ (funext fun a => Fin.ext ?_)
  match a with
  | ⟨0, _⟩ => show win0_1.index t (0 : Fin 3) * 8 + 1 * k.val = 8 * t.val + k.val; rw [e0]; omega
  | ⟨1, _⟩ => show win0_1.index t (1 : Fin 3) * 304 + 1 * b.val = b.val; rw [e1]; omega
  | ⟨2, _⟩ => show win0_1.index t (2 : Fin 3) * 768 + 1 * d.val = d.val; rw [e2]; omega

/-- The group-matrix window's block at any point is the whole matrix: entry (r, j) of the block is entry (r, j)
    of the array. -/
theorem group_block (t : Fin cfg0.N) (r : Fin 32) (j : Fin 1024) :
    (iblk m c 2 t : Vec Ideal S32x1024 .f32) (ix2 r j) = (V (F := Ideal) m c main_v11 : S32x1024.Idx → EReal) (ix2 r j) := by
  obtain ⟨-, -, -, -, -, e0, e1, -⟩ := index_maps t
  unfold iblk
  rw [View.read_apply]
  show (V (F := Ideal) m c main_v11 : S32x1024.Idx → EReal) (((cfg0.win 2).blk t).view.emb (ix2 r j)) = _
  refine congrArg _ (funext fun a => Fin.ext ?_)
  match a with
  | ⟨0, _⟩ => show win0_2.index t (0 : Fin 2) * 32 + 1 * r.val = r.val; rw [e0]; omega
  | ⟨1, _⟩ => show win0_2.index t (1 : Fin 2) * 1024 + 1 * j.val = j.val; rw [e1]; omega

/-- The query window's block, as a whole array: the query array the region finds. -/
theorem query_block_eq (t : Fin cfg0.N) :
    (iblk m c 0 t : Vec Ideal S1024x768 .bf16) = (V (F := Ideal) m c main_v1 : S1024x768.Idx → EReal) := by
  funext idx
  obtain ⟨j, d, rfl⟩ : ∃ (j : Fin 1024) (d : Fin 768), idx = ix2 j d := ⟨idx 0, idx 1, eq_ix2 idx⟩
  exact query_block m c t j d

/-- The group-matrix window's block, as a whole array: the group matrix the region finds. -/
theorem group_block_eq (t : Fin cfg0.N) :
    (iblk m c 2 t : Vec Ideal S32x1024 .f32) = (V (F := Ideal) m c main_v11 : S32x1024.Idx → EReal) := by
  funext idx
  obtain ⟨r, j, rfl⟩ : ∃ (r : Fin 32) (j : Fin 1024), idx = ix2 r j := ⟨idx 0, idx 1, eq_ix2 idx⟩
  exact group_block m c t r j

end Cert.KernelIdeal.Blocks

end
-- ==== Proof.HostGlue.lean ====
import proofs.«152648_j56470230008479_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

set_option maxRecDepth 16384

noncomputable section

namespace Cert.KernelIdeal.HostGlue

open Idealize.ShloMosaic Idealize.ShloMosaic.TcCoe Idealize.ShloMosaic.ValueIdx Idealize.ShloMosaic.StableHlo
open Cert.KernelIdeal Cert.KernelIdeal.Gen

/-! What the host operations before the one kernel launch leave in the three arrays its input windows stage, read at
    an index at the ideal values. -/

variable (m : (l : Loc nD τ sig) → Buf (Elt Ideal) l) (c : Dev nD)

variable {F : FTy → Type} [FloatOps F]

/-- The two operations of the outlined padding, as plain operations at the buffers of its one call: the integer
    zero converted to a float, then the passages padded with it. -/
abbrev padOps : List (HloOp τ sig (Elt F)) :=
  [ unary main_c main_call0_v0 (sitofp .f32 : (⟨S_, .i32⟩ : BufTy).Contents (Elt F) → (⟨S_, .f32⟩ : BufTy).Contents (Elt F)),
    binary main_arg1 main_call0_v0 main_v2 ((fun x v => pad S256x304x768 ![0, 0, 0] ![0, 4, 0] ![0, 0, 0] x v Facts₀.pads_S256x300x768_S256x304x768_000_040_000 Facts₀.h_S_) : (⟨S256x300x768, .f32⟩ : BufTy).Contents (Elt F) → (⟨S_, .f32⟩ : BufTy).Contents (Elt F) → (⟨S256x304x768, .f32⟩ : BufTy).Contents (Elt F)) ]

/-- The typed spelling of the two operations is the plain one: the transports along a literal reference's own type
    equation are the identity. -/
theorem hostOps0_1_eq : (hostOps0_1 : List (HloOp τ sig (Elt F))) = padOps := rfl

/-- The query array the region stages is the queries' row-major reshape from [32, 32, 768] to [1024, 768] (the
    narrowing to bf16 is the identity at the ideal values): row j holds query token (j / 32, j % 32). -/
theorem query_entry (j : Fin 1024) (d : Fin 768) :
    (V (F := Ideal) m c main_v1 : S1024x768.Idx → EReal) (ix2 j d)
      = (m ((c : Thread nD τ).loc main_arg0) : S32x32x768.Idx → EReal) (ix3 ⟨j.val / 32, by omega⟩ ⟨j.val % 32, by omega⟩ d) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  refine (shapeCast_apply (s := S32x32x768) (t := S1024x768) (m (c, Proc.tc.devRef main_arg0)) shapeCasts_S32x32x768_S1024x768 (ix2 j d)
    (ix3 ⟨j.val / 32, by omega⟩ ⟨j.val % 32, by omega⟩ d) ?_)
  rw [Shape.rowMajor_val_three, Shape.rowMajor_val_two]
  show (j.val / 32 * 32 + j.val % 32) * 768 + d.val = j.val * 768 + d.val
  omega

/-- The passage array the region stages is the passages with four rows of zeros after each passage's 300 tokens:
    the padding value is the integer zero converted, the float zero. -/
theorem passage_entry (p : Fin 256) (b : Fin 304) (d : Fin 768) :
    (V (F := Ideal) m c main_v2 : S256x304x768.Idx → EReal) (ix3 p b d)
      = (if h : b.val < 300 then (m ((c : Thread nD τ).loc main_arg1) : S256x300x768.Idx → EReal) (ix3 p ⟨b.val, h⟩ d) else 0 : EReal) := by
  dsimp only [Gen.V]
  rw [hostOps0_1_eq]
  simp only [Gen.hostOps0, padOps, Gen.hostOps0_2, Gen.hostOps0_3, Gen.hostOps0_4, List.flatten_cons, List.flatten_nil, List.append_nil, List.cons_append, List.nil_append]
  after_results
  by_cases h : b.val < 300
  · rw [dif_pos h]
    refine pad_apply_of_inside (s := S256x300x768) (t := S256x304x768) _ _ _ _ _ _ _ (ix3 p b d) (ix3 p ⟨b.val, h⟩ d) fun a => ?_
    match a with
    | ⟨0, _⟩ => show p.val = 0 + p.val * (0 + 1); omega
    | ⟨1, _⟩ => show b.val = 0 + b.val * (0 + 1); omega
    | ⟨2, _⟩ => show d.val = 0 + d.val * (0 + 1); omega
  · rw [dif_neg h]
    refine (pad_apply_of_not_inside (s := S256x300x768) (t := S256x304x768) _ _ _ _ _ _ _ (ix3 p b d) (1 : Fin 3) ?_).trans ?_
    · show ¬(0 ≤ b.val ∧ (b.val - 0) % (0 + 1) = 0 ∧ (b.val - 0) / (0 + 1) < 300)
      omega
    · show ((((0#32 : BitVec 32).toInt : ℤ) : ℝ) : EReal) = 0
      simp

end Cert.KernelIdeal.HostGlue

end
-- ==== Proof.GroupMatrix.lean ====
import proofs.«152648_j56470230008479_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

set_option maxRecDepth 16384

noncomputable section

namespace Cert.KernelIdeal.GroupMatrix

open Idealize.ShloMosaic Idealize.ShloMosaic.TcCoe Idealize.ShloMosaic.ValueIdx Idealize.ShloMosaic.StableHlo
open Cert.KernelIdeal Cert.KernelIdeal.Gen

section Ops

variable {F : FTy → Type} [FloatOps F]

/-- The seventeen operations of the outlined floor division, as plain operations at the buffers of its one call:
    the truncating quotient by the divisor, the two signs compared, the remainder compared with zero, and the
    quotient less one selected where the signs differ and the remainder is not zero. -/
abbrev floorDivOps : List (HloOp τ sig (Elt F)) :=
  [ unary main_c_0 main_call1_v0 (id : (⟨S_, .i32⟩ : BufTy).Contents (Elt F) → (⟨S_, .i32⟩ : BufTy).Contents (Elt F)),
    unary main_call1_v0 main_call1_v1 (broadcastInDim S1x1024 ![] bcast_S_S1x1024 : (⟨S_, .i32⟩ : BufTy).Contents (Elt F) → (⟨S1x1024, .i32⟩ : BufTy).Contents (Elt F)),
    binary main_v6 main_call1_v1 main_call1_v2 (Host.divsi : (⟨S1x1024, .i32⟩ : BufTy).Contents (Elt F) → (⟨S1x1024, .i32⟩ : BufTy).Contents (Elt F) → (⟨S1x1024, .i32⟩ : BufTy).Contents (Elt F)),
    unary main_v6 main_call1_v3 (signi : (⟨S1x1024, .i32⟩ : BufTy).Contents (Elt F) → (⟨S1x1024, .i32⟩ : BufTy).Contents (Elt F)),
    unary main_call1_v0 main_call1_v4 (signi : (⟨S_, .i32⟩ : BufTy).Contents (Elt F) → (⟨S_, .i32⟩ : BufTy).Contents (Elt F)),
    unary main_call1_v4 main_call1_v5 (broadcastInDim S1x1024 ![] bcast_S_S1x1024 : (⟨S_, .i32⟩ : BufTy).Contents (Elt F) → (⟨S1x1024, .i32⟩ : BufTy).Contents (Elt F)),
    binary main_call1_v3 main_call1_v5 main_call1_v6 (cmpi .ne : (⟨S1x1024, .i32⟩ : BufTy).Contents (Elt F) → (⟨S1x1024, .i32⟩ : BufTy).Contents (Elt F) → (⟨S1x1024, .i1⟩ : BufTy).Contents (Elt F)),
    unary main_call1_v0 main_call1_v7 (broadcastInDim S1x1024 ![] bcast_S_S1x1024 : (⟨S_, .i32⟩ : BufTy).Contents (Elt F) → (⟨S1x1024, .i32⟩ : BufTy).Contents (Elt F)),
    binary main_v6 main_call1_v7 main_call1_v8 (Host.remsi : (⟨S1x1024, .i32⟩ : BufTy).Contents (Elt F) → (⟨S1x1024, .i32⟩ : BufTy).Contents (Elt F) → (⟨S1x1024, .i32⟩ : BufTy).Contents (Elt F)),
    nullary main_call1_c (constantI S_ 32 0#32),
    unary main_call1_c main_call1_v9 (broadcastInDim S1x1024 ![] bcast_S_S1x1024 : (⟨S_, .i32⟩ : BufTy).Contents (Elt F) → (⟨S1x1024, .i32⟩ : BufTy).Contents (Elt F)),
    binary main_call1_v8 main_call1_v9 main_call1_v10 (cmpi .ne : (⟨S1x1024, .i32⟩ : BufTy).Contents (Elt F) → (⟨S1x1024, .i32⟩ : BufTy).Contents (Elt F) → (⟨S1x1024, .i1⟩ : BufTy).Contents (Elt F)),
    binary main_call1_v6 main_call1_v10 main_call1_v11 (andi : (⟨S1x1024, .i1⟩ : BufTy).Contents (Elt F) → (⟨S1x1024, .i1⟩ : BufTy).Contents (Elt F) → (⟨S1x1024, .i1⟩ : BufTy).Contents (Elt F)),
    nullary main_call1_c_0 (constantI S_ 32 1#32),
    unary main_call1_c_0 main_call1_v12 (broadcastInDim S1x1024 ![] bcast_S_S1x1024 : (⟨S_, .i32⟩ : BufTy).Contents (Elt F) → (⟨S1x1024, .i32⟩ : BufTy).Contents (Elt F)),
    binary main_call1_v2 main_call1_v12 main_call1_v13 (subi : (⟨S1x1024, .i32⟩ : BufTy).Contents (Elt F) → (⟨S1x1024, .i32⟩ : BufTy).Contents (Elt F) → (⟨S1x1024, .i32⟩ : BufTy).Contents (Elt F)),
    ternary main_call1_v11 main_call1_v13 main_call1_v2 main_v7 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)) ]

/-- The typed spelling of the seventeen operations is the plain one: the transports along a literal reference's own
    type equation are the identity. -/
theorem hostOps0_3_eq : (hostOps0_3 : List (HloOp τ sig (Elt F))) = floorDivOps := rfl

end Ops

/-- The sign of a word as a word: zero, minus one or one. -/
def sgnWord (x : BitVec 32) : BitVec 32 := if x = 0 then 0 else if x.msb then -1 else 1

/-- The floor division of one word by another as the host computes it: the truncating quotient, less one where
    the signs differ and the remainder is not zero. -/
def floorDivWord (x y : BitVec 32) : BitVec 32 :=
  Scalar.select (IntOp.andi (IntOp.cmpi .ne (sgnWord x) (sgnWord y)) (IntOp.cmpi .ne (IntOp.remsi .host x y) 0#32))
    (IntOp.subi (IntOp.divsi .host x y) 1#32) (IntOp.divsi .host x y)

/-- For 0 ≤ j < 1024 the floor division of the word j by 32 is the word j / 32: the divisor is not a corner, the
    signs agree unless j = 0, where the remainder is zero, so the correction never fires. -/
theorem floorDivWord_ofNat : ∀ j : Fin 1024, floorDivWord (BitVec.ofNat 32 j.val) 32#32 = BitVec.ofNat 32 (j.val / 32) := by
  decide +kernel

/-- Two words of naturals below 2 ^ 32 are equal exactly when the naturals are. -/
theorem ofNat_eq_iff (a b : ℕ) (ha : a < 4294967296) (hb : b < 4294967296) : (BitVec.ofNat 32 a = BitVec.ofNat 32 b) ↔ a = b := by
  rw [← BitVec.toNat_inj]
  simp only [BitVec.toNat_ofNat]
  omega

/-- The 0/1 entry: the one-bit comparison of two words of small naturals, converted unsigned. -/
theorem indicator (a b : ℕ) (ha : a < 4294967296) (hb : b < 4294967296) :
    (FloatOps.uitofp (F := Ideal) .f32 (IntOp.cmpi .eq (BitVec.ofNat 32 a) (BitVec.ofNat 32 b)) : EReal) = (if a = b then 1 else 0 : EReal) := by
  have hcmp : ∀ x y : BitVec 32, IntOp.cmpi .eq x y = BitVec.ofBool (x == y) := fun _ _ => rfl
  rw [hcmp]
  by_cases h : a = b
  · rw [if_pos h, show (BitVec.ofNat 32 a == BitVec.ofNat 32 b) = true from beq_iff_eq.mpr ((ofNat_eq_iff a b ha hb).mpr h)]
    show ((((BitVec.ofBool true).toNat : ℕ) : ℝ) : EReal) = 1
    rw [show (BitVec.ofBool true).toNat = 1 by decide]; simp
  · rw [if_neg h, show (BitVec.ofNat 32 a == BitVec.ofNat 32 b) = false from
      beq_eq_false_iff_ne.mpr (fun e => h ((ofNat_eq_iff a b ha hb).mp e))]
    show ((((BitVec.ofBool false).toNat : ℕ) : ℝ) : EReal) = 0
    rw [show (BitVec.ofBool false).toNat = 0 by decide]; simp

/-- The converted comparison of two word arrays, at an entry. -/
theorem top_apply (x y : IVec S32x1024 32) (idx : S32x1024.Idx) :
    (uitofp (F := Ideal) .f32 (cmpi .eq x y)) idx = FloatOps.uitofp (F := Ideal) .f32 (IntOp.cmpi .eq (x idx) (y idx)) := rfl

/-- The floor division's chain of pointwise operations, at an entry. -/
theorem chain_apply (x y sy z o : IVec S1x1024 32) (i : S1x1024.Idx) :
    select (andi (cmpi .ne (signi x) sy) (cmpi .ne (Host.remsi x y) z)) (subi (Host.divsi x y) o) (Host.divsi x y) i
      = Scalar.select (IntOp.andi (IntOp.cmpi .ne (sgnWord (x i)) (sy i)) (IntOp.cmpi .ne (IntOp.remsi .host (x i) (y i)) (z i)))
          (IntOp.subi (IntOp.divsi .host (x i) (y i)) (o i)) (IntOp.divsi .host (x i) (y i)) := rfl

/-- A constant scalar broadcast over the row reads the constant everywhere. -/
theorem const_apply (b : BitVec 32) (i : S1x1024.Idx) :
    broadcastInDim S1x1024 ![] bcast_S_S1x1024 (constantI S_ 32 b) i = b := rfl

/-- The sign of a constant scalar, broadcast over the row, reads the sign of the constant everywhere. -/
theorem sign_const_apply (b : BitVec 32) (i : S1x1024.Idx) :
    broadcastInDim S1x1024 ![] bcast_S_S1x1024 (signi (constantI S_ 32 b)) i = sgnWord b := rfl

/-- The column numbers 0 … 1023 laid out as one row, at column j. -/
theorem cols_apply (j : Fin 1024) :
    broadcastInDim S1x1024 ![1] bcast_S1024_S1x1024_1 (iotaInDim S1024 32 0) (ix2 (0 : Fin 1) j) = BitVec.ofNat 32 j.val := by
  rw [broadcastInDim_apply _ bcast_S1024_S1x1024_1 _ (ix2 (0 : Fin 1) j) (ix1 j) (fun a => match a with | ⟨0, _⟩ => rfl), iotaInDim_apply]

/-- The row numbers 0 … 31 laid out as one column, at row r. -/
theorem rows_apply (r : Fin 32) :
    broadcastInDim S32x1 ![0] bcast_S32_S32x1_0 (iotaInDim S32 32 0) (ix2 r (0 : Fin 1)) = BitVec.ofNat 32 r.val := by
  rw [broadcastInDim_apply _ bcast_S32_S32x1_0 _ (ix2 r (0 : Fin 1)) (ix1 r) (fun a => match a with | ⟨0, _⟩ => rfl), iotaInDim_apply]

variable (m : (l : Loc nD τ sig) → Buf (Elt Ideal) l) (c : Dev nD)

set_option maxHeartbeats 4000000 in
/-- The group matrix the region stages: entry (r, j) is 1 exactly when column j belongs to group r = j / 32. The
    column numbers are floor-divided by 32, broadcast over the rows and compared with the row numbers; the one-bit
    result is converted unsigned. -/
theorem group_entry (r : Fin 32) (j : Fin 1024) :
    (V (F := Ideal) m c main_v11 : S32x1024.Idx → EReal) (ix2 r j) = (if j.val / 32 = r.val then 1 else 0 : EReal) := by
  dsimp only [Gen.V]
  rw [hostOps0_3_eq]
  simp only [Gen.hostOps0, Gen.hostOps0_1, Gen.hostOps0_2, floorDivOps, Gen.hostOps0_4, List.flatten_cons, List.flatten_nil, List.append_nil, List.cons_append, List.nil_append]
  after_results_simp
  rw [top_apply]
  rw [broadcastInDim_apply _ bcast_S1x1024_S32x1024_0_1 _ (ix2 r j) (ix2 (0 : Fin 1) j) (fun a => match a with | ⟨0, _⟩ => rfl | ⟨1, _⟩ => rfl),
    broadcastInDim_apply _ bcast_S32x1_S32x1024_0_1 _ (ix2 r j) (ix2 r (0 : Fin 1)) (fun a => match a with | ⟨0, _⟩ => rfl | ⟨1, _⟩ => rfl),
    rows_apply, chain_apply, cols_apply]
  simp only [id_eq]
  rw [sign_const_apply, const_apply, const_apply, const_apply]
  have h := floorDivWord_ofNat j
  unfold floorDivWord at h
  rw [h, indicator (j.val / 32) r.val (by omega) (by omega)]

end Cert.KernelIdeal.GroupMatrix

end
-- ==== Proof.KernelValue.lean ====
/-
  The kernel's result array.

  The output array [32, 256] is two blocks of 128 columns, one per half of the grid; block h is written back once, by
  the last of the half's sixteen steps, and holds what the accumulator then holds: the zero word plus the sixteen
  updates.  Step s of half h loads the whole array of query token rows, the whole grouping matrix, and passages
  8 (16 h + s) … 8 (16 h + s) + 7, padded; with what those arrays hold on entry to the region — the queries re-laid as
  1024 token rows, the passages each followed by four zero rows, the 0/1 matrix of the groups — the sum of the sixteen
  updates at (r, col) is the value `G` at (r, 128 h + col).  The two blocks cover the array, so after the run it is
  `G` of the two arguments.
-/
import proofs.«152648_j56470230008479_2_alg».proof.Proof.Gen.KernelIdeal.Value
import proofs.«152648_j56470230008479_2_alg».proof.Proof.Spec
import proofs.«152648_j56470230008479_2_alg».proof.Proof.Accumulate
import proofs.«152648_j56470230008479_2_alg».proof.Proof.Blocks
import proofs.«152648_j56470230008479_2_alg».proof.Proof.HostGlue
import proofs.«152648_j56470230008479_2_alg».proof.Proof.GroupMatrix
import Idealize.ShloMosaic.Lib.Pipeline.Value
import Idealize.ShloMosaic.Lib.ValueIdx

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg) (c : Dev nD)

/-- The queries as launched. -/
abbrev queries : S32x32x768.Idx → EReal := m ((c : Thread nD τ).loc main_arg0)
/-- The passages as launched. -/
abbrev passages : S256x300x768.Idx → EReal := m ((c : Thread nD τ).loc main_arg1)

/-- The block of eight padded passages that step s of half h loads (anything past the grid). -/
def stepBlock (h : Fin 2) (s : ℕ) : Vec Ideal S8x304x768 .f32 :=
  if hb : 16 * h.val + s < cfg0.N then (iblk m c 1 ⟨16 * h.val + s, hb⟩ : Vec Ideal S8x304x768 .f32) else fun _ => (0 : EReal)

/-- Row k of step s's block is passage 8 (16 h + s) + k, followed by four rows of zeros. -/
theorem stepBlock_entry (h : Fin 2) (s : ℕ) (hs : s < 16) (k : Fin 8) (b : Fin 304) (d : Fin 768) :
    stepBlock m c h s (ix3 k b d) = if hb : b.val < 300 then
      passages m c (ix3 ⟨8 * (16 * h.val + s) + k.val, by have := h.isLt; have := k.isLt; omega⟩ ⟨b.val, hb⟩ d) else 0 := by
  have hN : cfg0.N = 32 := N_0
  have hb : 16 * h.val + s < cfg0.N := by have := h.isLt; omega
  unfold stepBlock
  rw [dif_pos hb]
  exact (Blocks.passages_block m c ⟨16 * h.val + s, hb⟩ k b d).trans (HostGlue.passage_entry m c _ b d)

/-- What step s of half h adds: the update of step s over the query rows, the step's block and the grouping matrix. -/
theorem addend_eq (h : Fin 2) (s : ℕ) (hs : s < 16) (r : Fin 32) (col : Fin 128) :
    Accumulate.addend m c (16 * h.val + s) r col
      = Cert.Sparta.update s (V (F := Ideal) m c main_v1 : S1024x768.Idx → EReal) (stepBlock m c h s)
          (V (F := Ideal) m c main_v11 : S32x1024.Idx → EReal) r col := by
  have hN : cfg0.N = 32 := N_0
  have hb : 16 * h.val + s < cfg0.N := by have := h.isLt; omega
  have hmod : (16 * h.val + s) % 16 = s := by omega
  unfold Accumulate.addend stepBlock
  rw [dif_pos hb, dif_pos hb, Blocks.query_block_eq m c ⟨16 * h.val + s, hb⟩, Blocks.group_block_eq m c ⟨16 * h.val + s, hb⟩, hmod]

/-- What the last step of a half writes back is the half's block of `G`. -/
theorem flushed_eq (t : Fin cfg0.N) (hf : (cfg0.win 3).flush t = true) :
    (dats m 0 c).flushed 3 t = ((cfg0.win 3).blk t).view.read (Elt Ideal) (Cert.Sparta.G (queries m c) (passages m c)) := by
  have hN : cfg0.N = 32 := N_0
  have h15 : t.val % 16 = 15 := (flush0_3 t).mp hf
  have hq : t.val / 16 < 2 := by have := t.isLt; omega
  obtain ⟨-, -, -, -, -, -, -, e0, e1⟩ := Blocks.index_maps t
  rw [flushed3 m c t, Accumulate.output_at_last m c t h15]
  refine funext fun (y : S32x128.Idx) => ?_
  obtain ⟨r, col, rfl⟩ : ∃ (r : Fin 32) (col : Fin 128), y = ix2 r col := ⟨y 0, y 1, eq_ix2 y⟩
  have he : ((cfg0.win 3).blk t).view.emb (ix2 r col)
      = ix2 r (⟨128 * (t.val / 16) + col.val, by have := col.isLt; omega⟩ : Fin 256) := by
    funext a; apply Fin.ext
    match a with
    | ⟨0, _⟩ => show win0_3.index t (0 : Fin 2) * 32 + 1 * r.val = r.val; rw [e0]; omega
    | ⟨1, _⟩ => show win0_3.index t (1 : Fin 2) * 128 + 1 * col.val = 128 * (t.val / 16) + col.val; rw [e1]; omega
  show (outsAt0 m c t.val t.isLt).2 (ix2 r col)
    = Cert.Sparta.G (queries m c) (passages m c) (((cfg0.win 3).blk t).view.emb (ix2 r col))
  rw [he, Accumulate.accumulator_at_last m c t h15 r col,
    Finset.sum_congr rfl fun s hs => addend_eq m c ⟨t.val / 16, hq⟩ s (Finset.mem_range.mp hs) r col]
  exact Cert.Sparta.steps_eq_G (queries m c) (passages m c) (V (F := Ideal) m c main_v1 : S1024x768.Idx → EReal)
    (stepBlock m c ⟨t.val / 16, hq⟩) (V (F := Ideal) m c main_v11 : S32x1024.Idx → EReal) ⟨t.val / 16, hq⟩
    (HostGlue.query_entry m c) (fun s hs k b d => stepBlock_entry m c ⟨t.val / 16, hq⟩ s hs k b d)
    (GroupMatrix.group_entry m c) r col

/-- An entry of the array lies in point t's output block exactly when each coordinate lies in the block's range. -/
theorem mem_block (t : Fin cfg0.N) (i : S32x256.Idx) :
    i ∈ ((cfg0.win 3).blk t).view.set ↔ ∀ a : Fin 2, win0_3.index t a * S32x128.size a ≤ (i a).val
      ∧ (i a).val < win0_3.index t a * S32x128.size a + S32x128.size a := by
  show i ∈ ((View.whole main_v12).slice (win0_3.rect t)).set ↔ _
  rw [View.set_slice_whole, Rect.mem_set_unit]
  exact Iff.rfl

/-- After the run the output array is `G` of the two arguments: column j lies in the block the last step of half
    j / 128 writes back. -/
theorem final : (dats m 0 c).arrAt 3 cfg0.N = Cert.Sparta.G (queries m c) (passages m c) :=
  (dats m 0 c).arrAt_eq_of_cover 3 (Cert.Sparta.G (queries m c) (passages m c)) (flushed_eq m c) fun i => by
    have hN : cfg0.N = 32 := N_0
    have hi0 : (i 0).val < 32 := (i 0).isLt
    have hi1 : (i 1).val < 256 := (i 1).isLt
    have ht : 16 * ((i 1).val / 128) + 15 < cfg0.N := by omega
    obtain ⟨-, -, -, -, -, -, -, e0, e1⟩ := Blocks.index_maps ⟨16 * ((i 1).val / 128) + 15, ht⟩
    refine ⟨⟨16 * ((i 1).val / 128) + 15, ht⟩, (flush0_3 _).mpr (by show (16 * ((i 1).val / 128) + 15) % 16 = 15; omega), ?_⟩
    rw [mem_block]
    intro a
    match a with
    | ⟨0, _⟩ =>
      show win0_3.index ⟨16 * ((i 1).val / 128) + 15, ht⟩ (0 : Fin 2) * 32 ≤ (i 0).val
        ∧ (i 0).val < win0_3.index ⟨16 * ((i 1).val / 128) + 15, ht⟩ (0 : Fin 2) * 32 + 32
      rw [e0]; omega
    | ⟨1, _⟩ =>
      show win0_3.index ⟨16 * ((i 1).val / 128) + 15, ht⟩ (1 : Fin 2) * 128 ≤ (i 1).val
        ∧ (i 1).val < win0_3.index ⟨16 * ((i 1).val / 128) + 15, ht⟩ (1 : Fin 2) * 128 + 128
      rw [e1]
      show (16 * ((i 1).val / 128) + 15) / 16 * 128 ≤ (i 1).val ∧ (i 1).val < (16 * ((i 1).val / 128) + 15) / 16 * 128 + 128
      omega

/-- Every weakly fair execution of the kernel's program terminates with the output array at `G` of the two arguments,
    and the arguments unchanged. -/
theorem run : θ_run defs (onTc (τ := τ) (main (F := Ideal))) ⟨m, fun _ => 0, ρ⟩ fun r => ∀ c : Dev nD,
      r.2.mem ((c : Thread nD τ).loc main_v12) = Cert.Sparta.G (queries m c) (passages m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefRun.lean ====
/-
  The reference program's run, read back.

  The reference is a straight line of ten host operations: the product of every passage token with every query token
  over the embedding axis, a transposition, the maximum over a passage's tokens, a comparison with zero, log(1 + x),
  and the sum over a query's tokens.  Listing them and folding their results over the launch contents gives the result
  buffer as one composed term of the two argument arrays, which are left unchanged.  The three operations of the
  outlined comparison with zero are listed at the buffers of the call, as plain operations: their typed spelling is
  the same operation, the two transports along a reference's own type equation being the identity.
-/
import proofs.«152648_j56470230008479_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The ten operations, in order. -/
abbrev ops : List (HloOp τ sig (Elt F)) :=
  [ binary main_arg1 main_arg0 main_v0 ((fun l r => Host.dotGeneral dot_S256x300x768_S32x32x768_S256x300x32x32_2_2_01_01_n_n none l r) : (⟨S256x300x768, .f32⟩ : BufTy).Contents (Elt F) → (⟨S32x32x768, .f32⟩ : BufTy).Contents (Elt F) → (⟨S256x300x32x32, .f32⟩ : BufTy).Contents (Elt F)),
    unary main_v0 main_v1 ((transpose S32x256x32x300 [2, 0, 3, 1] · transposes_S256x300x32x32_S32x256x32x300_2_0_3_1) : (⟨S256x300x32x32, .f32⟩ : BufTy).Contents (Elt F) → (⟨S32x256x32x300, .f32⟩ : BufTy).Contents (Elt F)),
    nullary main_cst (constant S_ .f32 0xFF800000#32),
    binary main_v1 main_cst main_v2 ((fun x v => Host.reduce FloatOps.maximumf x v reducesTo_S32x256x32x300_S32x256x32_d3 h_S_) : (⟨S32x256x32x300, .f32⟩ : BufTy).Contents (Elt F) → (⟨S_, .f32⟩ : BufTy).Contents (Elt F) → (⟨S32x256x32, .f32⟩ : BufTy).Contents (Elt F)),
    nullary main_call0_cst (constant S_ .f32 0x00000000#32),
    unary main_call0_cst main_call0_v0 (broadcastInDim S32x256x32 ![] bcast_S_S32x256x32 : (⟨S_, .f32⟩ : BufTy).Contents (Elt F) → (⟨S32x256x32, .f32⟩ : BufTy).Contents (Elt F)),
    binary main_v2 main_call0_v0 main_v3 (maximumf : (⟨S32x256x32, .f32⟩ : BufTy).Contents (Elt F) → (⟨S32x256x32, .f32⟩ : BufTy).Contents (Elt F) → (⟨S32x256x32, .f32⟩ : BufTy).Contents (Elt F)),
    unary main_v3 main_v4 (Host.log1p : (⟨S32x256x32, .f32⟩ : BufTy).Contents (Elt F) → (⟨S32x256x32, .f32⟩ : BufTy).Contents (Elt F)),
    nullary main_cst_0 (constant S_ .f32 0x00000000#32),
    binary main_v4 main_cst_0 main_v5 ((fun x v => Host.reduceAdd x v reducesTo_S32x256x32_S32x256_d2 h_S_) : (⟨S32x256x32, .f32⟩ : BufTy).Contents (Elt F) → (⟨S_, .f32⟩ : BufTy).Contents (Elt F) → (⟨S32x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., nullary_bufs_sub .., binary_bufs_sub .., nullary_bufs_sub .., unary_bufs_sub .., binary_bufs_sub .., unary_bufs_sub .., nullary_bufs_sub .., binary_bufs_sub ..⟩

/-- The composed term of the reference's result, as a function of the two argument arrays. -/
def result (q : (⟨S32x32x768, .f32⟩ : BufTy).Contents (Elt F)) (p : (⟨S256x300x768, .f32⟩ : BufTy).Contents (Elt F)) :
    (⟨S32x256, .f32⟩ : BufTy).Contents (Elt F) :=
  Host.reduceAdd (Host.log1p (maximumf (Host.reduce FloatOps.maximumf (transpose S32x256x32x300 [2, 0, 3, 1] (Host.dotGeneral dot_S256x300x768_S32x32x768_S256x300x32x32_2_2_01_01_n_n none p q) transposes_S256x300x32x32_S32x256x32x300_2_0_3_1) (constant S_ .f32 0xFF800000#32) reducesTo_S32x256x32x300_S32x256x32_d3 h_S_) (broadcastInDim S32x256x32 ![] bcast_S_S32x256x32 (constant S_ .f32 0x00000000#32)))) (constant S_ .f32 0x00000000#32) reducesTo_S32x256x32_S32x256_d2 h_S_

set_option maxHeartbeats 1000000 in
/-- On every device, from any memory with zero counters: every weakly fair execution of the reference terminates
    with its result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (by unfold result; after_results <;> rfl),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.RefRun

end
-- ==== Proof.RefRead.lean ====
/-
  The reference's composed term is `G`.

  Read at (q, p), the reference's result is the zero word plus the sum over the 32 query tokens a of log(1 + max(M, 0)),
  M the maximum, from minus infinity, over the passage's 300 tokens b of the transposed product's entry (q, p, a, b) —
  which is the product's entry (p, b, q, a), the sum over the 768 coordinates of passage (p, b, ·) times query (q, a, ·).
-/
import proofs.«152648_j56470230008479_2_alg».proof.Proof.RefRun
import proofs.«152648_j56470230008479_2_alg».proof.Proof.Spec
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.ValueIdx

/-- The product of every passage token with every query token, at (p, b, q, a): the sum over the embedding. -/
theorem scores_apply (Q : FVec Ideal S32x32x768 .f32) (P : FVec Ideal S256x300x768 .f32)
    (p : Fin 256) (b : Fin 300) (q a : Fin 32) :
    Host.dotGeneral (F := Ideal) dot_S256x300x768_S32x32x768_S256x300x32x32_2_2_01_01_n_n none P Q (ix4 p b q a) = ∑ d : Fin 768, P (ix3 p b d) * Q (ix3 q a d) := by
  simp only [Host.dotGeneral]
  rw [Ideal.dotGeneral_apply, ← Equiv.sum_comp (contrEquiv1 dot_S256x300x768_S32x32x768_S256x300x32x32_2_2_01_01_n_n 768 rfl rfl).symm]
  refine Finset.sum_congr rfl fun k _ => ?_
  have hk := contrEquiv1_symm_val dot_S256x300x768_S32x32x768_S256x300x32x32_2_2_01_01_n_n 768 rfl rfl k
  have l0 : ((dot_S256x300x768_S32x32x768_S256x300x32x32_2_2_01_01_n_n).lhsIdx (ix4 p b q a) ((contrEquiv1 dot_S256x300x768_S32x32x768_S256x300x32x32_2_2_01_01_n_n 768 rfl rfl).symm k) (0 : Fin S256x300x768.rank)).val = p.val := by
    unfold DotDims.lhsIdx
    rw [dif_neg (show ¬(0 : Fin S256x300x768.rank) ∈ (dot_S256x300x768_S32x32x768_S256x300x32x32_2_2_01_01_n_n).lhsBatch by decide), dif_pos (show (0 : Fin S256x300x768.rank) ∈ (dot_S256x300x768_S32x32x768_S256x300x32x32_2_2_01_01_n_n).lhsNonContracting by decide)]
    rfl
  have l1 : ((dot_S256x300x768_S32x32x768_S256x300x32x32_2_2_01_01_n_n).lhsIdx (ix4 p b q a) ((contrEquiv1 dot_S256x300x768_S32x32x768_S256x300x32x32_2_2_01_01_n_n 768 rfl rfl).symm k) (1 : Fin S256x300x768.rank)).val = b.val := by
    unfold DotDims.lhsIdx
    rw [dif_neg (show ¬(1 : Fin S256x300x768.rank) ∈ (dot_S256x300x768_S32x32x768_S256x300x32x32_2_2_01_01_n_n).lhsBatch by decide), dif_pos (show (1 : Fin S256x300x768.rank) ∈ (dot_S256x300x768_S32x32x768_S256x300x32x32_2_2_01_01_n_n).lhsNonContracting by decide)]
    rfl
  have r0 : ((dot_S256x300x768_S32x32x768_S256x300x32x32_2_2_01_01_n_n).rhsIdx (ix4 p b q a) ((contrEquiv1 dot_S256x300x768_S32x32x768_S256x300x32x32_2_2_01_01_n_n 768 rfl rfl).symm k) (0 : Fin S32x32x768.rank)).val = q.val := by
    unfold DotDims.rhsIdx
    rw [dif_neg (show ¬(0 : Fin S32x32x768.rank) ∈ (dot_S256x300x768_S32x32x768_S256x300x32x32_2_2_01_01_n_n).rhsBatch by decide), dif_pos (show (0 : Fin S32x32x768.rank) ∈ (dot_S256x300x768_S32x32x768_S256x300x32x32_2_2_01_01_n_n).rhsNonContracting by decide)]
    rfl
  have r1 : ((dot_S256x300x768_S32x32x768_S256x300x32x32_2_2_01_01_n_n).rhsIdx (ix4 p b q a) ((contrEquiv1 dot_S256x300x768_S32x32x768_S256x300x32x32_2_2_01_01_n_n 768 rfl rfl).symm k) (1 : Fin S32x32x768.rank)).val = a.val := by
    unfold DotDims.rhsIdx
    rw [dif_neg (show ¬(1 : Fin S32x32x768.rank) ∈ (dot_S256x300x768_S32x32x768_S256x300x32x32_2_2_01_01_n_n).rhsBatch by decide), dif_pos (show (1 : Fin S32x32x768.rank) ∈ (dot_S256x300x768_S32x32x768_S256x300x32x32_2_2_01_01_n_n).rhsNonContracting by decide)]
    rfl
  have el : (dot_S256x300x768_S32x32x768_S256x300x32x32_2_2_01_01_n_n).lhsIdx (ix4 p b q a) ((contrEquiv1 dot_S256x300x768_S32x32x768_S256x300x32x32_2_2_01_01_n_n 768 rfl rfl).symm k) = ix3 p b k :=
    funext fun ax => Fin.ext (by
      match ax with
      | ⟨0, _⟩ => exact l0
      | ⟨1, _⟩ => exact l1
      | ⟨2, _⟩ => exact ((dot_S256x300x768_S32x32x768_S256x300x32x32_2_2_01_01_n_n).lhsIdx_val_of_single rfl _ _).trans hk)
  have er : (dot_S256x300x768_S32x32x768_S256x300x32x32_2_2_01_01_n_n).rhsIdx (ix4 p b q a) ((contrEquiv1 dot_S256x300x768_S32x32x768_S256x300x32x32_2_2_01_01_n_n 768 rfl rfl).symm k) = ix3 q a k :=
    funext fun ax => Fin.ext (by
      match ax with
      | ⟨0, _⟩ => exact r0
      | ⟨1, _⟩ => exact r1
      | ⟨2, _⟩ => exact ((dot_S256x300x768_S32x32x768_S256x300x32x32_2_2_01_01_n_n).rhsIdx_val_of_single rfl _ _).trans hk)
  rw [el, er]

/-- The transposed product at (q, p, a, b) is the product at (p, b, q, a). -/
theorem transposed_apply (y : FVec Ideal S256x300x32x32 .f32) (q : Fin 32) (p : Fin 256) (a : Fin 32) (b : Fin 300) :
    transpose S32x256x32x300 [2, 0, 3, 1] y transposes_S256x300x32x32_S32x256x32x300_2_0_3_1 (ix4 q p a b) = y (ix4 p b q a) :=
  transpose_apply [2, 0, 3, 1] y transposes_S256x300x32x32_S32x256x32x300_2_0_3_1 (ix4 q p a b) (ix4 p b q a) (fun c => match c with
    | ⟨0, _⟩ => rfl
    | ⟨1, _⟩ => rfl
    | ⟨2, _⟩ => rfl
    | ⟨3, _⟩ => rfl)

/-- The maximum over a passage's tokens, from minus infinity, at (q, p, a). -/
theorem best_apply (x : FVec Ideal S32x256x32x300 .f32) (q : Fin 32) (p : Fin 256) (a : Fin 32) :
    Host.reduce FloatOps.maximumf x (constant (F := Ideal) S_ .f32 0xFF800000#32) reducesTo_S32x256x32x300_S32x256x32_d3 h_S_ (ix3 q p a)
      = (Finset.univ : Finset (Fin 300)).fold max Cert.Sparta.negInf (fun b => x (ix4 q p a b)) := by
  rw [Host.reduce_eq_fold_single FloatOps.maximumf x _ reducesTo_S32x256x32x300_S32x256x32_d3 (by decide) h_S_]
  have e : (x ∘ (by decide : S32x256x32x300.Reduces [3] S32x256x32).lift (ix3 q p a)) = fun b : Fin 300 => x (ix4 q p a b) :=
    funext fun b => congrArg x (funext fun ax => Fin.ext (by
      match ax with
      | ⟨0, _⟩ => rfl
      | ⟨1, _⟩ => rfl
      | ⟨2, _⟩ => rfl
      | ⟨3, _⟩ => rfl))
  rw [e]; rfl

/-- log(1 + x) of an array on the host, at an entry. -/
theorem hostLog1p_at (x : FVec Ideal S32x256x32 .f32) (idx : S32x256x32.Idx) : Host.log1p x idx = Ideal.log1p (x idx) := rfl

/-- The entrywise maximum of two arrays, at an entry. -/
theorem maximum_at (x y : FVec Ideal S32x256x32 .f32) (idx : S32x256x32.Idx) : maximumf x y idx = max (x idx) (y idx) := rfl

/-- The zero array the comparison is made with is the zero word at every entry. -/
theorem zero_block_at (q : Fin 32) (p : Fin 256) (a : Fin 32) :
    broadcastInDim S32x256x32 ![] bcast_S_S32x256x32 (constant (F := Ideal) S_ .f32 0x00000000#32) (ix3 q p a) = Cert.Sparta.zero32 :=
  broadcastInDim_apply _ bcast_S_S32x256x32 _ (ix3 q p a) (fun a => a.elim0) (fun a => a.elim0)

/-- The reference's result is `G` of its two arguments. -/
theorem result_eq (Q : FVec Ideal S32x32x768 .f32) (P : FVec Ideal S256x300x768 .f32) :
    RefRun.result (F := Ideal) Q P = Cert.Sparta.G Q P := by
  funext i
  obtain ⟨q, p, rfl⟩ : ∃ (q : Fin 32) (p : Fin 256), i = ix2 q p := ⟨i 0, i 1, eq_ix2 i⟩
  unfold RefRun.result Cert.Sparta.G
  simp only [Host.reduceAdd, Ideal.hostReduceAdd_def]
  rw [Ideal.hostReduceAdd_single reducesTo_S32x256x32_S32x256_d2 (by decide)]
  refine congrArg₂ (· + ·) rfl (Finset.sum_congr rfl fun (a : Fin 32) _ => ?_)
  have e : (by decide : S32x256x32.Reduces [2] S32x256).lift (ix2 q p) a = ix3 q p a :=
    funext fun ax => Fin.ext (by
      match ax with
      | ⟨0, _⟩ => rfl
      | ⟨1, _⟩ => rfl
      | ⟨2, _⟩ => rfl)
  rw [e]
  unfold Cert.Sparta.term
  refine (hostLog1p_at _ _).trans (congrArg Ideal.log1p ((maximum_at _ _ _).trans (congrArg₂ max ?_ ?_)))
  · rw [best_apply]
    refine congrArg (fun f => Finset.fold max Cert.Sparta.negInf f (Finset.univ : Finset (Fin 300))) (funext fun b => ?_)
    rw [transposed_apply, scores_apply]
    rfl
  · exact zero_block_at q p a

end Cert.ReferenceIdeal.RefRead

end
-- ==== Proof.lean ====
/-
  Both programs compute, for query q and passage p, the sum over the query's 32 tokens of log(1 + max(best, 0)), best
  the largest inner product of the token's embedding with the embeddings of the passage's 300 tokens (`Sparta.G`).

  The reference does so in a straight line: one product over the embedding axis, a transposition, a maximum, a comparison
  with zero, log(1 + x), a sum.  The kernel pads every passage with four zero tokens, walks a grid of two halves of
  sixteen steps, eight passages a step, sums a query's tokens by a product with a 0/1 grouping matrix, places a step's
  eight columns by a product with a 0/1 matrix, and adds the steps up in an accumulator written back once per half.
  On the extended reals these arrangements agree entry by entry, with no condition on the inputs: a zero token scores 0,
  which a maximum that is then compared with 0 absorbs; multiplying by 0 or 1 and adding zeros is exact, infinities
  included; and changing a float's format is the identity.  So the three programs run with their arguments unchanged,
  the idealization rewrote nothing, and the two idealized programs end at the same array.
-/
import proofs.«152648_j56470230008479_2_alg».proof.Defs
import proofs.«152648_j56470230008479_2_alg».proof.Proof.Gen.Kernel
import proofs.«152648_j56470230008479_2_alg».proof.Proof.Gen.Kernel.Skeleton
import proofs.«152648_j56470230008479_2_alg».proof.Proof.Gen.Kernel.Launch
import proofs.«152648_j56470230008479_2_alg».proof.Proof.Gen.Kernel.Points
import proofs.«152648_j56470230008479_2_alg».proof.Proof.Gen.Kernel.Frame
import proofs.«152648_j56470230008479_2_alg».proof.Proof.Gen.KernelIdeal
import proofs.«152648_j56470230008479_2_alg».proof.Proof.Gen.KernelIdeal.Skeleton
import proofs.«152648_j56470230008479_2_alg».proof.Proof.Gen.KernelIdeal.Launch
import proofs.«152648_j56470230008479_2_alg».proof.Proof.Gen.KernelIdeal.Points
import proofs.«152648_j56470230008479_2_alg».proof.Proof.Gen.KernelIdeal.Frame
import proofs.«152648_j56470230008479_2_alg».proof.Proof.Gen.ReferenceIdeal
import proofs.«152648_j56470230008479_2_alg».proof.Proof.Gen.Pre_finite_inputs
import proofs.«152648_j56470230008479_2_alg».proof.Proof.Gen.KernelIdeal.Value
import proofs.«152648_j56470230008479_2_alg».proof.Proof.KernelValue
import proofs.«152648_j56470230008479_2_alg».proof.Proof.RefRun
import proofs.«152648_j56470230008479_2_alg».proof.Proof.RefRead
import Idealize.ShloMosaic.Adequacy
import Idealize.ShloMosaic.Init

noncomputable section

namespace Cert.Proof

open Idealize.ShloMosaic Idealize.ShloMosaic.TcCoe Idealize.SL.Sem

/-- The kernel's program, at the machine words, runs and leaves its arguments unchanged. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the two arguments, the kernel's output array and the reference's result both end at
    `Sparta.G` of the arguments. -/
theorem algebraic : Cert.algebraic_KernelIdeal_ReferenceIdeal := by
  intro m ρ m' ρ' _ hagree
  refine ⟨fun c => Cert.Sparta.G (Cert.KernelIdeal.KernelValue.queries m c) (Cert.KernelIdeal.KernelValue.passages m c),
    Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
